-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4096 : Shape := ⟨2, ![50000, 4096]⟩
abbrev S50000x128 : Shape := ⟨2, ![50000, 128]⟩
abbrev S4096x512 : Shape := ⟨2, ![4096, 512]⟩
abbrev S512 : Shape := ⟨1, ![512]⟩
abbrev S512x128 : Shape := ⟨2, ![512, 128]⟩
abbrev S128 : Shape := ⟨1, ![128]⟩
abbrev S2x1600000 : Shape := ⟨2, ![2, 1600000]⟩
abbrev S_ : Shape := ⟨0, ![]⟩

class Facts : Prop where
  bcast_S_S50000x4096 : S_.BroadcastsInDim S50000x4096 (![] : Fin 0 → Fin S50000x4096.rank)
  reducesTo_S50000x4096_S_d0_1 : S50000x4096.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x4096 .f32) (main_arg1 : FVec F S50000x128 .f32) (main_arg2 : FVec F S4096x512 .f32) (main_arg3 : FVec F S512 .f32) (main_arg4 : FVec F S512x128 .f32) (main_arg5 : FVec F S128 .f32) (main_arg6 : IVec S2x1600000 32) : IVec S_ 1 :=
  let main_v0 : FVec F S50000x4096 .f32 := Host.absf main_arg0
  let main_cst : FVec F S_ .f32 := constant S_ .f32 0x7F800000#32
  let main_v1 : FVec F S50000x4096 .f32 := broadcastInDim S50000x4096 ![] bcast_S_S50000x4096 main_cst
  let main_v2 : IVec S50000x4096 1 := cmpf .olt main_v0 main_v1
  let main_c : IVec S_ 1 := constantI S_ 1 1#1
  let main_v3 : IVec S_ 1 := (fun x v => Host.reduce IntOp.andi x v reducesTo_S50000x4096_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S50000x4096 : Shape := ⟨2, ![50000, 4096]⟩
abbrev S50000x128 : Shape := ⟨2, ![50000, 128]⟩
abbrev S4096x512 : Shape := ⟨2, ![4096, 512]⟩
abbrev S512 : Shape := ⟨1, ![512]⟩
abbrev S512x128 : Shape := ⟨2, ![512, 128]⟩
abbrev S128 : Shape := ⟨1, ![128]⟩
abbrev S2x1600000 : Shape := ⟨2, ![2, 1600000]⟩
abbrev S1x512 : Shape := ⟨2, ![1, 512]⟩
abbrev S1x128 : Shape := ⟨2, ![1, 128]⟩
abbrev S400x4096 : Shape := ⟨2, ![400, 4096]⟩
abbrev S400x128 : Shape := ⟨2, ![400, 128]⟩
abbrev S400x512 : Shape := ⟨2, ![400, 512]⟩
abbrev S100000x128 : Shape := ⟨2, ![100000, 128]⟩
abbrev S_ : Shape := ⟨0, ![]⟩
abbrev S100000 : Shape := ⟨1, ![100000]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 89
  | .vmem => 8
  | .smem => 0
  | _ => 0

abbrev bufTy : (tb : Table) → Fin (tcTables nBuf tb) → BufTy
  | .hbm, ⟨0, _⟩ => ⟨S50000x4096, .f32⟩
  | .hbm, ⟨1, _⟩ => ⟨S50000x128, .f32⟩
  | .hbm, ⟨2, _⟩ => ⟨S4096x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S2x1600000, .i32⟩
  | .hbm, ⟨7, _⟩ => ⟨S4096x512, .bf16⟩
  | .hbm, ⟨8, _⟩ => ⟨S512x128, .bf16⟩
  | .hbm, ⟨9, _⟩ => ⟨S1x512, .f32⟩
  | .hbm, ⟨10, _⟩ => ⟨S1x128, .f32⟩
  | .hbm, ⟨11, _⟩ => ⟨S50000x128, .f32⟩
  | .hbm, ⟨12, _⟩ => ⟨S100000x128, .f32⟩
  | .hbm, ⟨13, _⟩ => ⟨S100000x128, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000, .f32⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x128, .f32⟩
  | .hbm, ⟨72, _⟩ => ⟨S1600000x1, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1600000x128, .f32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S100000x128, .f32⟩
  | .local _ .vmem, ⟨0, _⟩ => ⟨S400x4096, .f32⟩
  | .local _ .vmem, ⟨1, _⟩ => ⟨S400x4096, .f32⟩
  | .local _ .vmem, ⟨2, _⟩ => ⟨S4096x512, .bf16⟩
  | .local _ .vmem, ⟨3, _⟩ => ⟨S1x512, .f32⟩
  | .local _ .vmem, ⟨4, _⟩ => ⟨S512x128, .bf16⟩
  | .local _ .vmem, ⟨5, _⟩ => ⟨S1x128, .f32⟩
  | .local _ .vmem, ⟨6, _⟩ => ⟨S400x128, .f32⟩
  | .local _ .vmem, ⟨7, _⟩ => ⟨S400x128, .f32⟩
  | _, _ => ⟨S50000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S512_S1x512 : S512.ShapeCasts S1x512
  shapeCasts_S128_S1x128 : S128.ShapeCasts S1x128
  inb_S400x4096_S400x4096_0_0 : ∀ a, (![0, 0] : Fin 2 → Nat) a + S400x4096.size a ≤ S400x4096.size a
  h_S400x4096 : 0 < S400x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  concatenates_S50000x128_S50000x128_S100000x128_d0 : Shape.Concatenates [S50000x128, S50000x128] S100000x128 0
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S400x4096_S4096x512_S400x512_1_0_0_1_n_n_wf : DotDims.WF S400x4096 S4096x512 S400x512 [1] [0] [0] [1] [] []
  dot_S400x512_S512x128_S400x128_1_0_0_1_n_n_wf : DotDims.WF S400x512 S512x128 S400x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x4096.size a ≤ S50000x4096.size a
  hwx0_0 : ∀ i : grid0.Coords, EltTy.bits .f32 = 32 ∨ (Rect.block (s := S50000x4096) S400x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S50000x128.size a
  hwx0_5 : ∀ i : grid0.Coords, EltTy.bits .f32 = 32 ∨ (Rect.block (s := S50000x128) S400x128.size (cc0_transform_5 i) (hinb0_5 i)).WholeWords (EltTy.packing .f32)

variable [Facts₀]

def dot_S400x4096_S4096x512_S400x512_1_0_0_1_n_n : DotDims S400x4096 S4096x512 S400x512 where
  lhsContracting := [1]
  rhsContracting := [0]
  lhsNonContracting := [0]
  rhsNonContracting := [1]
  lhsBatch := []
  rhsBatch := []
  wf := dot_S400x4096_S4096x512_S400x512_1_0_0_1_n_n_wf
def dot_S400x512_S512x128_S400x128_1_0_0_1_n_n : DotDims S400x512 S512x128 S400x128 where
  lhsContracting := [1]
  rhsContracting := [0]
  lhsNonContracting := [0]
  rhsNonContracting := [1]
  lhsBatch := []
  rhsBatch := []
  wf := dot_S400x512_S512x128_S400x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S400x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x4096 : Shape := ⟨2, ![50000, 4096]⟩
abbrev S50000x128 : Shape := ⟨2, ![50000, 128]⟩
abbrev S4096x512 : Shape := ⟨2, ![4096, 512]⟩
abbrev S512 : Shape := ⟨1, ![512]⟩
abbrev S512x128 : Shape := ⟨2, ![512, 128]⟩
abbrev S128 : Shape := ⟨1, ![128]⟩
abbrev S2x1600000 : Shape := ⟨2, ![2, 1600000]⟩
abbrev S50000x512 : Shape := ⟨2, ![50000, 512]⟩
abbrev S1x512 : Shape := ⟨2, ![1, 512]⟩
abbrev S_ : Shape := ⟨0, ![]⟩
abbrev S1x128 : Shape := ⟨2, ![1, 128]⟩
abbrev S100000x128 : Shape := ⟨2, ![100000, 128]⟩
abbrev S100000 : Shape := ⟨1, ![100000]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x4096, .f32⟩
  | .hbm, ⟨1, _⟩ => ⟨S50000x128, .f32⟩
  | .hbm, ⟨2, _⟩ => ⟨S4096x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S2x1600000, .i32⟩
  | .hbm, ⟨7, _⟩ => ⟨S50000x512, .f32⟩
  | .hbm, ⟨8, _⟩ => ⟨S1x512, .f32⟩
  | .hbm, ⟨9, _⟩ => ⟨S50000x512, .f32⟩
  | .hbm, ⟨10, _⟩ => ⟨S50000x512, .f32⟩
  | .hbm, ⟨11, _⟩ => ⟨S_, .f32⟩
  | .hbm, ⟨12, _⟩ => ⟨S_, .f32⟩
  | .hbm, ⟨13, _⟩ => ⟨S50000x512, .f32⟩
  | .hbm, ⟨14, _⟩ => ⟨S50000x512, .i1⟩
  | .hbm, ⟨15, _⟩ => ⟨S_, .f32⟩
  | .hbm, ⟨16, _⟩ => ⟨S50000x512, .f32⟩
  | .hbm, ⟨17, _⟩ => ⟨S50000x512, .f32⟩
  | .hbm, ⟨18, _⟩ => ⟨S50000x512, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x1600000, .i32⟩
  | .hbm, ⟨35, _⟩ => ⟨S1600000, .i32⟩
  | .hbm, ⟨36, _⟩ => ⟨S1x1600000, .i32⟩
  | .hbm, ⟨37, _⟩ => ⟨S1600000, .i32⟩
  | .hbm, ⟨38, _⟩ => ⟨S_, .f32⟩
  | .hbm, ⟨39, _⟩ => ⟨S1600000, .f32⟩
  | .hbm, ⟨40, _⟩ => ⟨S_, .f32⟩
  | .hbm, ⟨41, _⟩ => ⟨S100000, .f32⟩
  | .hbm, ⟨42, _⟩ => ⟨S1600000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000, .f32⟩
  | .hbm, ⟨65, _⟩ => ⟨S1600000, .f32⟩
  | .hbm, ⟨66, _⟩ => ⟨S1600000x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x128, .f32⟩
  | .hbm, ⟨83, _⟩ => ⟨S1600000x1, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S1600000x128, .f32⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S100000x128, .f32⟩
  | _, _ => ⟨S50000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S100000x128_d0 : Shape.Concatenates [S50000x128, S50000x128] S100000x128 0
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S50000x4096_S4096x512_S50000x512_1_0_0_1_n_n_wf : DotDims.WF S50000x4096 S4096x512 S50000x512 [1] [0] [0] [1] [] []
  dot_S50000x512_S512x128_S50000x128_1_0_0_1_n_n_wf : DotDims.WF S50000x512 S512x128 S50000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S50000x4096_S4096x512_S50000x512_1_0_0_1_n_n : DotDims S50000x4096 S4096x512 S50000x512 where
  lhsContracting := [1]
  rhsContracting := [0]
  lhsNonContracting := [0]
  rhsNonContracting := [1]
  lhsBatch := []
  rhsBatch := []
  wf := dot_S50000x4096_S4096x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KBody.lean ====
/-
  The kernel body at one grid point, as a triple.

  The body is called on six whole staging buffers: a block of 400 rows of the features, the first weight matrix, the
  first bias as one row, the second weight matrix, the second bias as one row, and the 400 × 128 output block. It
  loads the five inputs whole, computes one 400 × 128 value from them, and stores that value over the whole output
  block. So after the body the inputs' buffers hold what they held, and the output's buffer holds that one value:
  the store's rectangle is the whole block, hence covers it, and what a buffer holds after stores that cover it is
  the stored values read back in order. Stated for any float instance.
-/
import proofs.«106516_j49108656063298_1_alg».proof.Proof.Gen.Kernel.Launch
import proofs.«106516_j49108656063298_1_alg».proof.Proof.Gen.Kernel.Skeleton
import proofs.«106516_j49108656063298_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its buffer whole -/

abbrev rFeat : Rect S400x4096 := Rect.unit (s := S400x4096) ![0, 0] S400x4096.size inb_S400x4096_S400x4096_0_0
abbrev rW1 : Rect S4096x512 := Rect.unit (s := S4096x512) ![0, 0] S4096x512.size inb_S4096x512_S4096x512_0_0
abbrev rB1 : Rect S1x512 := Rect.unit (s := S1x512) ![0, 0] S1x512.size inb_S1x512_S1x512_0_0
abbrev rW2 : Rect S512x128 := Rect.unit (s := S512x128) ![0, 0] S512x128.size inb_S512x128_S512x128_0_0
abbrev rB2 : Rect S1x128 := Rect.unit (s := S1x128) ![0, 0] S1x128.size inb_S1x128_S1x128_0_0
abbrev rOut : Rect S400x128 := Rect.unit (s := S400x128) ![0, 0] S400x128.size inb_S400x128_S400x128_0_0

/-! ## What the body leaves in the output block -/

/-- The output block after the body, from the five input buffers' contents: the one store, of the body's value of the
    five loads, read back. -/
def outBlock (x0 : Vec F S400x4096 .f32) (x1 : Vec F S4096x512 .bf16) (x2 : Vec F S1x512 .f32)
    (x3 : Vec F S512x128 .bf16) (x4 : Vec F S1x128 .f32) : Vec F S400x128 .f32 :=
  View.canon [⟨rOut, k0_pay1 (View.ld x0 rFeat) (View.ld x1 rW1) (View.ld x2 rB1) (View.ld x3 rW2) (View.ld x4 rB2)⟩]

/-- The store's rectangle is the whole block: every index of the block lies in it. -/
theorem outCover (p0 : Vec F S400x128 .f32) (y : S400x128.Idx) :
    ∃ pc ∈ ([⟨rOut, p0⟩] : List (View.Piece (Elt F) S400x128 .f32)), y ∈ pc.1.set :=
  View.cover_of_tiled [⟨rOut, p0⟩] S400x128.size (by rfl) y

/-! ## The body's triple -/

set_option maxHeartbeats 4000000 in
/-- Called on whole buffers holding `x0 … x4` (the inputs) and anything (the output), the body runs to its
    continuation with the inputs' buffers as they were and the output's at `outBlock x0 … x4`. -/
theorem sound_kernel (c : Dev nD) (E : Set ℕ) (i : grid0.Coords)
    (arg1 : Memref sig .tc .vmem S400x4096 .f32) (harg1 : arg1.IsWhole) (arg2 : Memref sig .tc .vmem S4096x512 .bf16) (harg2 : arg2.IsWhole)
    (arg3 : Memref sig .tc .vmem S1x512 .f32) (harg3 : arg3.IsWhole) (arg4 : Memref sig .tc .vmem S512x128 .bf16) (harg4 : arg4.IsWhole)
    (arg5 : Memref sig .tc .vmem S1x128 .f32) (harg5 : arg5.IsWhole) (arg6 : Memref sig .tc .vmem S400x128 .f32) (harg6 : arg6.IsWhole)
    (x0 : Vec F S400x4096 .f32) (x1 : Vec F S4096x512 .bf16) (x2 : Vec F S1x512 .f32) (x3 : Vec F S512x128 .bf16) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

end Cert.Kernel.HandFrame

end
-- ==== Proof.KFrame.lean ====
/-
  The pipeline's proof data and its body obligation.

  The region runs the body at 125 points. At point t window 0 holds rows 400·t … 400·t + 399 of the features;
  windows 1 … 4 hold the two weight matrices and the two one-row biases whole, at every point (they are fetched at
  the first point and their block index never moves); window 5 is the output block, written back at every point.
  The proof data says what each window's staging buffer holds after the body at each point: an input's its block,
  the output's the body's value of the five input blocks. Each input's buffer holds its block BEFORE the body too,
  fetched at that point or not, so the body's triple applies at every point, which is the body obligation.
  Stated for any float instance.
-/
import proofs.«106516_j49108656063298_1_alg».proof.Proof.KBody

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Each input's staging buffer holds its block at every point, fetched there or not

For any proof data whose array is the region-entry one and whose body leaves the block in place: where the window is
not fetched its block index has not moved, so the block left by the point before is this point's. -/

theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block
    and the output's at the body's value of the five input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The proof data's arrays are the region-entry contents (the definition projected, never unfolded further). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 2000000 in
/-- The body at any point: the inputs' buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.HandFrame

end
-- ==== Proof.KHost.lean ====
/- The host side of @main around its one region, for the frame of the program: the four host lines before the
   region, the seventy-seven after it (the concatenation; the L2 norm written out, five lines; the normalisation,
   the degrees and the two rounds of gather / scale / scatter-add, seventy-one lines), stated at any float
   instance. Every host line writes exactly one buffer, the one holding its own result, and that buffer is neither
   one of @main's seven arguments nor — after the region — one of the six arrays the region's windows are cut
   from. Hence: the region finds each argument as launched, the lines after the region keep each array as the
   region left it, and each argument ends as launched. -/
import proofs.«106516_j49108656063298_1_alg».proof.Proof.Gen.Kernel.Launch
import Idealize.ShloMosaic.Lib.Pipeline.FrameSuffix

-- the walks over the seventy-one-line stretch recurse once per line
set_option maxRecDepth 16384

noncomputable section

namespace Cert.Kernel.HandHost

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-! ## The buffers no host line writes -/

/-- @main's seven arguments. -/
abbrev argRefs : List (Ref sig .tc) :=
  [main_arg0, main_arg1, main_arg2, main_arg3, main_arg4, main_arg5, main_arg6]

/-- The arguments together with the five values the region's windows are cut from besides `main_arg0`: the two
    converted weights, the two reshaped biases (all four written BEFORE the region) and the region's result. -/
abbrev keptRefs : List (Ref sig .tc) :=
  argRefs ++ [main_v0, main_v1, main_v2, main_v3, main_v4]

/-- Each window's array is one of them. -/
theorem arr_mem_keptRefs : ∀ w, Pipeline.arrRef spec0 w ∈ keptRefs := by decide

/-- The lines after the region, as the three stretches @main's chain has them. -/
abbrev tailOps : List (List (HloOp τ sig (Elt F))) := [hostOps1, hostOps1_1, hostOps1_2]

/-- The four lines before the region write `main_v0` … `main_v3`: no argument. -/
theorem hostOps0_keeps (b : Ref sig .tc) (hb : b ∈ argRefs) :
    (hostOps0 : List (HloOp τ sig (Elt F))).Forall fun op => Proc.devRef .tc b ∉ op.writes := by
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (ne_of_mem_of_not_mem hb (by decide))

/-- The concatenation writes `main_v5`. -/
theorem hostOps1_keeps (b : Ref sig .tc) (hb : b ∈ keptRefs) :
    (hostOps1 : List (HloOp τ sig (Elt F))).Forall fun op => Proc.devRef .tc b ∉ op.writes := by
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (ne_of_mem_of_not_mem hb (by decide))

/-- The norm's five lines write its four intermediate values and `main_v6`. -/
theorem hostOps1_1_keeps (b : Ref sig .tc) (hb : b ∈ keptRefs) :
    (hostOps1_1 : List (HloOp τ sig (Elt F))).Forall fun op => Proc.devRef .tc b ∉ op.writes := by
  simp only [hostOps1_1, StableHlo.TRef.binary, StableHlo.TRef.unary, StableHlo.TRef.nullary, List.Forall,
    StableHlo.nullary_writes, StableHlo.unary_writes, StableHlo.binary_writes,
    StableHlo.ternary_writes, StableHlo.reshape_writes, Finset.mem_singleton]
  repeat' apply And.intro
  all_goals exact StableHlo.devRef_ne_of_ne (ne_of_mem_of_not_mem hb (by decide))

set_option maxHeartbeats 40000000 in
/-- The last seventy-one lines write the constants and `main_v7` … `main_v63`. -/
theorem hostOps1_2_keeps (b : Ref sig .tc) (hb : b ∈ keptRefs) :
    (hostOps1_2 : List (HloOp τ sig (Elt F))).Forall fun op => Proc.devRef .tc b ∉ op.writes := by
  simp only [hostOps1_2, List.Forall, StableHlo.nullary_writes, StableHlo.unary_writes, StableHlo.binary_writes,
    StableHlo.ternary_writes, StableHlo.reshape_writes, Finset.mem_singleton]
  repeat' apply And.intro
  all_goals exact StableHlo.devRef_ne_of_ne (ne_of_mem_of_not_mem hb (by decide))

/-- So no line after the region writes an argument or a window's array. -/
theorem tail_keeps (b : Ref sig .tc) (hb : b ∈ keptRefs) :
    ∀ ops ∈ (tailOps : List (List (HloOp τ sig (Elt F)))), ∀ op ∈ ops, Proc.devRef .tc b ∉ op.writes := by
  intro ops hops op hop
  simp only [List.mem_cons, List.mem_nil_iff, or_false] at hops
  rcases hops with rfl | rfl | rfl
  · exact (List.forall_iff_forall_mem.mp (hostOps1_keeps b hb)) op hop
  · exact (List.forall_iff_forall_mem.mp (hostOps1_1_keeps b hb)) op hop
  · exact (List.forall_iff_forall_mem.mp (hostOps1_2_keeps b hb)) op hop

/-! ## @main around the region -/

/-- Core `c`'s TensorCore buffer contents when the region is entered, as a valuation: after the four host lines
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 40000000 in
theorem hostOps1_2_fresh : (hostOps1_2 : List (HloOp τ sig (Elt F))).Forall fun op => op.fresh = ∅ := by
  simp only [List.Forall]; repeat' constructor

/-- @main around the region: the host lines before it run from the launch contents to `V`, and what is left is the
    region CONTINUED BY the three later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- A line after the region touches only unscoped TensorCore buffers, and with nothing prefetched every such buffer
    is either one of the region's arrays or a buffer that bypasses the region: the buffers a line after the region
    may touch. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no array of the region: each writes its own result buffer, which is none of the six. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps (Pipeline.arrRef spec0 w) (arr_mem_keptRefs w) ops hops op hop

/-! ## The arguments, before and after -/

/-- No host line before the region writes an argument: the region finds it as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [List.flatten_cons, List.flatten_nil, List.append_nil]
    exact hostOps0_keeps b hb))

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)
theorem V_main_arg5 (c : Dev nD) : V m c main_arg5 = m ((c : Thread nD τ).loc main_arg5) := V_arg m c _ (by decide)
theorem V_main_arg6 (c : Dev nD) : V m c main_arg6 = m ((c : Thread nD τ).loc main_arg6) := V_arg m c _ (by decide)

/-- An argument that is no window's array ends as launched: no line after the region writes it, the region's exit
    contents hold it at its region-entry contents (it is no array), and no line before the region writes it. -/
theorem W_arg (dats : (p : Fin 1) → (c : Dev nD) → Pipeline.Dat τ (Elt F) Unit ℕ (UR sig nD τ) ℕ (cfgs p) c) (c : Dev nD)
    (b : Ref sig .tc) (hb : b ∈ argRefs) (hne : ∀ w, Pipeline.arrRef spec0 w ≠ b) :
    Pipeline.afterTail₀ cfgs dats 0 (V0 m) tailOps c b = m ((c : Thread nD τ).loc b) := by
  have hk : b ∈ keptRefs := List.mem_append_left _ hb
  unfold Pipeline.afterTail₀
  rw [StableHlo.after_of_forall_not_mem (b := Proc.devRef .tc b) _ _ (fun op hop => by
      obtain ⟨ops, hops, h⟩ := List.mem_flatten.mp hop
      exact tail_keeps b hk ops hops op h),
    Pipeline.withArrays_of_ne _ c (V0 m c) _ b hne]
  exact V_arg m c b hb

/-- `main_arg1` … `main_arg6` are no window's array (`main_arg0` is window 0's, and is read off the region's own
    account of its arrays instead). -/
theorem W_main_arg1 (dats : (p : Fin 1) → (c : Dev nD) → Pipeline.Dat τ (Elt F) Unit ℕ (UR sig nD τ) ℕ (cfgs p) c) (c : Dev nD) :
    Pipeline.afterTail₀ cfgs dats 0 (V0 m) tailOps c main_arg1 = m ((c : Thread nD τ).loc main_arg1) :=
  W_arg m dats c _ (by decide) (by decide)
theorem W_main_arg2 (dats : (p : Fin 1) → (c : Dev nD) → Pipeline.Dat τ (Elt F) Unit ℕ (UR sig nD τ) ℕ (cfgs p) c) (c : Dev nD) :
    Pipeline.afterTail₀ cfgs dats 0 (V0 m) tailOps c main_arg2 = m ((c : Thread nD τ).loc main_arg2) :=
  W_arg m dats c _ (by decide) (by decide)
theorem W_main_arg3 (dats : (p : Fin 1) → (c : Dev nD) → Pipeline.Dat τ (Elt F) Unit ℕ (UR sig nD τ) ℕ (cfgs p) c) (c : Dev nD) :
    Pipeline.afterTail₀ cfgs dats 0 (V0 m) tailOps c main_arg3 = m ((c : Thread nD τ).loc main_arg3) :=
  W_arg m dats c _ (by decide) (by decide)
theorem W_main_arg4 (dats : (p : Fin 1) → (c : Dev nD) → Pipeline.Dat τ (Elt F) Unit ℕ (UR sig nD τ) ℕ (cfgs p) c) (c : Dev nD) :
    Pipeline.afterTail₀ cfgs dats 0 (V0 m) tailOps c main_arg4 = m ((c : Thread nD τ).loc main_arg4) :=
  W_arg m dats c _ (by decide) (by decide)
theorem W_main_arg5 (dats : (p : Fin 1) → (c : Dev nD) → Pipeline.Dat τ (Elt F) Unit ℕ (UR sig nD τ) ℕ (cfgs p) c) (c : Dev nD) :
    Pipeline.afterTail₀ cfgs dats 0 (V0 m) tailOps c main_arg5 = m ((c : Thread nD τ).loc main_arg5) :=
  W_arg m dats c _ (by decide) (by decide)
theorem W_main_arg6 (dats : (p : Fin 1) → (c : Dev nD) → Pipeline.Dat τ (Elt F) Unit ℕ (UR sig nD τ) ℕ (cfgs p) c) (c : Dev nD) :
    Pipeline.afterTail₀ cfgs dats 0 (V0 m) tailOps c main_arg6 = m ((c : Thread nD τ).loc main_arg6) :=
  W_arg m dats c _ (by decide) (by decide)

end Cert.Kernel.HandHost

end
-- ==== Proof.KRun.lean ====
/-
  The kernel program's run, and its frame.

  @main is four host lines, the region, and 77 host lines after it. The host lines after the region read the region's
  result and the bypassing buffers and write only buffers of their own: none writes a window's array, none allocates.
  So the region runs from the contents the first four lines leave, its body obligation holds at every point, and the
  later lines run from the region's exit. Every weakly fair execution therefore terminates, with each window's array
  at what the proof data computes (an input's: its contents at entry) and every other unscoped buffer as the later
  lines leave it. No host line, before or after, writes an argument: the arguments end as launched.
  Stated for any float instance.
-/
import proofs.«106516_j49108656063298_1_alg».proof.Proof.KFrame
import proofs.«106516_j49108656063298_1_alg».proof.Proof.KHost

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The three lists of host lines after the region. -/
abbrev tailOps : List (List (HloOp τ sig (Elt F))) := [hostOps1, hostOps1_1, hostOps1_2]

set_option backward.isDefEq.respectTransparency.types false in
/-- From any memory with zero counters every weakly fair execution of @main terminates, and every final state has
    every window's array at what the proof data computes and every other unscoped buffer as the lines after the
    region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := HandHost.sfx_sub) (hfresh := HandHost.sfx_fresh)
    (hkeep := HandHost.sfx_keeps) (hmain := HandHost.hmain m Variants.none) (hA := A_eq m) (hΦ := fun _ _ => rfl)

/-- The first argument is window 0's array, an input: the run leaves it at its contents at entry, which no host line
    before the region wrote. -/
theorem kept_arg0 (r : PUnit × MemSt nD τ sig (Elt F))
    (h : Pipeline.FramePost cfgs (dats m) 0 (Pipeline.afterTail₀ cfgs (dats m) 0 (V0 m) tailOps) r) (c : Dev nD) :
    r.2.mem ((c : Thread nD τ).loc main_arg0) = m ((c : Thread nD τ).loc main_arg0) :=
  ((h c).1 0).trans (((dats m 0 c).arrAt_in 0 rfl _).trans ((A_eq m c 0).trans (HandHost.V_main_arg0 m c)))

/-- THE FRAME: every weakly fair execution terminates, faulting nowhere, with the seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨kept_arg0 m r h c,
      ((h c).2 main_arg1 (Pipeline.mem_restRefs_of main_arg1 (by decide) (by decide))).trans (HandHost.W_main_arg1 m (dats m) c),
      ((h c).2 main_arg2 (Pipeline.mem_restRefs_of main_arg2 (by decide) (by decide))).trans (HandHost.W_main_arg2 m (dats m) c),
      ((h c).2 main_arg3 (Pipeline.mem_restRefs_of main_arg3 (by decide) (by decide))).trans (HandHost.W_main_arg3 m (dats m) c),
      ((h c).2 main_arg4 (Pipeline.mem_restRefs_of main_arg4 (by decide) (by decide))).trans (HandHost.W_main_arg4 m (dats m) c),
      ((h c).2 main_arg5 (Pipeline.mem_restRefs_of main_arg5 (by decide) (by decide))).trans (HandHost.W_main_arg5 m (dats m) c),
      ((h c).2 main_arg6 (Pipeline.mem_restRefs_of main_arg6 (by decide) (by decide))).trans (HandHost.W_main_arg6 m (dats m) c)⟩)
    (run_main m ρ)

end Cert.Kernel.HandFrame

end
-- ==== Proof.KBodyIdeal.lean ====
/-
  The kernel body at one grid point, as a triple.

  The body is called on six whole staging buffers: a block of 400 rows of the features, the first weight matrix, the
  first bias as one row, the second weight matrix, the second bias as one row, and the 400 × 128 output block. It
  loads the five inputs whole, computes one 400 × 128 value from them, and stores that value over the whole output
  block. So after the body the inputs' buffers hold what they held, and the output's buffer holds that one value:
  the store's rectangle is the whole block, hence covers it, and what a buffer holds after stores that cover it is
  the stored values read back in order. Stated for any float instance.
-/
import proofs.«106516_j49108656063298_1_alg».proof.Proof.Gen.KernelIdeal.Launch
import proofs.«106516_j49108656063298_1_alg».proof.Proof.Gen.KernelIdeal.Skeleton
import proofs.«106516_j49108656063298_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its buffer whole -/

abbrev rFeat : Rect S400x4096 := Rect.unit (s := S400x4096) ![0, 0] S400x4096.size inb_S400x4096_S400x4096_0_0
abbrev rW1 : Rect S4096x512 := Rect.unit (s := S4096x512) ![0, 0] S4096x512.size inb_S4096x512_S4096x512_0_0
abbrev rB1 : Rect S1x512 := Rect.unit (s := S1x512) ![0, 0] S1x512.size inb_S1x512_S1x512_0_0
abbrev rW2 : Rect S512x128 := Rect.unit (s := S512x128) ![0, 0] S512x128.size inb_S512x128_S512x128_0_0
abbrev rB2 : Rect S1x128 := Rect.unit (s := S1x128) ![0, 0] S1x128.size inb_S1x128_S1x128_0_0
abbrev rOut : Rect S400x128 := Rect.unit (s := S400x128) ![0, 0] S400x128.size inb_S400x128_S400x128_0_0

/-! ## What the body leaves in the output block -/

/-- The output block after the body, from the five input buffers' contents: the one store, of the body's value of the
    five loads, read back. -/
def outBlock (x0 : Vec F S400x4096 .f32) (x1 : Vec F S4096x512 .bf16) (x2 : Vec F S1x512 .f32)
    (x3 : Vec F S512x128 .bf16) (x4 : Vec F S1x128 .f32) : Vec F S400x128 .f32 :=
  View.canon [⟨rOut, k0_pay1 (View.ld x0 rFeat) (View.ld x1 rW1) (View.ld x2 rB1) (View.ld x3 rW2) (View.ld x4 rB2)⟩]

/-- The store's rectangle is the whole block: every index of the block lies in it. -/
theorem outCover (p0 : Vec F S400x128 .f32) (y : S400x128.Idx) :
    ∃ pc ∈ ([⟨rOut, p0⟩] : List (View.Piece (Elt F) S400x128 .f32)), y ∈ pc.1.set :=
  View.cover_of_tiled [⟨rOut, p0⟩] S400x128.size (by rfl) y

/-! ## The body's triple -/

set_option maxHeartbeats 4000000 in
/-- Called on whole buffers holding `x0 … x4` (the inputs) and anything (the output), the body runs to its
    continuation with the inputs' buffers as they were and the output's at `outBlock x0 … x4`. -/
theorem sound_kernel (c : Dev nD) (E : Set ℕ) (i : grid0.Coords)
    (arg1 : Memref sig .tc .vmem S400x4096 .f32) (harg1 : arg1.IsWhole) (arg2 : Memref sig .tc .vmem S4096x512 .bf16) (harg2 : arg2.IsWhole)
    (arg3 : Memref sig .tc .vmem S1x512 .f32) (harg3 : arg3.IsWhole) (arg4 : Memref sig .tc .vmem S512x128 .bf16) (harg4 : arg4.IsWhole)
    (arg5 : Memref sig .tc .vmem S1x128 .f32) (harg5 : arg5.IsWhole) (arg6 : Memref sig .tc .vmem S400x128 .f32) (harg6 : arg6.IsWhole)
    (x0 : Vec F S400x4096 .f32) (x1 : Vec F S4096x512 .bf16) (x2 : Vec F S1x512 .f32) (x3 : Vec F S512x128 .bf16) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

end Cert.KernelIdeal.HandFrame

end
-- ==== Proof.KFrameIdeal.lean ====
/-
  The pipeline's proof data and its body obligation.

  The region runs the body at 125 points. At point t window 0 holds rows 400·t … 400·t + 399 of the features;
  windows 1 … 4 hold the two weight matrices and the two one-row biases whole, at every point (they are fetched at
  the first point and their block index never moves); window 5 is the output block, written back at every point.
  The proof data says what each window's staging buffer holds after the body at each point: an input's its block,
  the output's the body's value of the five input blocks. Each input's buffer holds its block BEFORE the body too,
  fetched at that point or not, so the body's triple applies at every point, which is the body obligation.
  Stated for any float instance.
-/
import proofs.«106516_j49108656063298_1_alg».proof.Proof.KBodyIdeal

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Each input's staging buffer holds its block at every point, fetched there or not

For any proof data whose array is the region-entry one and whose body leaves the block in place: where the window is
not fetched its block index has not moved, so the block left by the point before is this point's. -/

theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block
    and the output's at the body's value of the five input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The proof data's arrays are the region-entry contents (the definition projected, never unfolded further). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 2000000 in
/-- The body at any point: the inputs' buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.HandFrame

end
-- ==== Proof.KHostIdeal.lean ====
/- The host side of @main around its one region, for the frame of the program: the four host lines before the
   region, the seventy-seven after it (the concatenation; the L2 norm written out, five lines; the normalisation,
   the degrees and the two rounds of gather / scale / scatter-add, seventy-one lines), stated at any float
   instance. Every host line writes exactly one buffer, the one holding its own result, and that buffer is neither
   one of @main's seven arguments nor — after the region — one of the six arrays the region's windows are cut
   from. Hence: the region finds each argument as launched, the lines after the region keep each array as the
   region left it, and each argument ends as launched. -/
import proofs.«106516_j49108656063298_1_alg».proof.Proof.Gen.KernelIdeal.Launch
import Idealize.ShloMosaic.Lib.Pipeline.FrameSuffix

-- the walks over the seventy-one-line stretch recurse once per line
set_option maxRecDepth 16384

noncomputable section

namespace Cert.KernelIdeal.HandHost

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-! ## The buffers no host line writes -/

/-- @main's seven arguments. -/
abbrev argRefs : List (Ref sig .tc) :=
  [main_arg0, main_arg1, main_arg2, main_arg3, main_arg4, main_arg5, main_arg6]

/-- The arguments together with the five values the region's windows are cut from besides `main_arg0`: the two
    converted weights, the two reshaped biases (all four written BEFORE the region) and the region's result. -/
abbrev keptRefs : List (Ref sig .tc) :=
  argRefs ++ [main_v0, main_v1, main_v2, main_v3, main_v4]

/-- Each window's array is one of them. -/
theorem arr_mem_keptRefs : ∀ w, Pipeline.arrRef spec0 w ∈ keptRefs := by decide

/-- The lines after the region, as the three stretches @main's chain has them. -/
abbrev tailOps : List (List (HloOp τ sig (Elt F))) := [hostOps1, hostOps1_1, hostOps1_2]

/-- The four lines before the region write `main_v0` … `main_v3`: no argument. -/
theorem hostOps0_keeps (b : Ref sig .tc) (hb : b ∈ argRefs) :
    (hostOps0 : List (HloOp τ sig (Elt F))).Forall fun op => Proc.devRef .tc b ∉ op.writes := by
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (ne_of_mem_of_not_mem hb (by decide))

/-- The concatenation writes `main_v5`. -/
theorem hostOps1_keeps (b : Ref sig .tc) (hb : b ∈ keptRefs) :
    (hostOps1 : List (HloOp τ sig (Elt F))).Forall fun op => Proc.devRef .tc b ∉ op.writes := by
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (ne_of_mem_of_not_mem hb (by decide))

/-- The norm's five lines write its four intermediate values and `main_v6`. -/
theorem hostOps1_1_keeps (b : Ref sig .tc) (hb : b ∈ keptRefs) :
    (hostOps1_1 : List (HloOp τ sig (Elt F))).Forall fun op => Proc.devRef .tc b ∉ op.writes := by
  simp only [hostOps1_1, StableHlo.TRef.binary, StableHlo.TRef.unary, StableHlo.TRef.nullary, List.Forall,
    StableHlo.nullary_writes, StableHlo.unary_writes, StableHlo.binary_writes,
    StableHlo.ternary_writes, StableHlo.reshape_writes, Finset.mem_singleton]
  repeat' apply And.intro
  all_goals exact StableHlo.devRef_ne_of_ne (ne_of_mem_of_not_mem hb (by decide))

set_option maxHeartbeats 40000000 in
/-- The last seventy-one lines write the constants and `main_v7` … `main_v63`. -/
theorem hostOps1_2_keeps (b : Ref sig .tc) (hb : b ∈ keptRefs) :
    (hostOps1_2 : List (HloOp τ sig (Elt F))).Forall fun op => Proc.devRef .tc b ∉ op.writes := by
  simp only [hostOps1_2, List.Forall, StableHlo.nullary_writes, StableHlo.unary_writes, StableHlo.binary_writes,
    StableHlo.ternary_writes, StableHlo.reshape_writes, Finset.mem_singleton]
  repeat' apply And.intro
  all_goals exact StableHlo.devRef_ne_of_ne (ne_of_mem_of_not_mem hb (by decide))

/-- So no line after the region writes an argument or a window's array. -/
theorem tail_keeps (b : Ref sig .tc) (hb : b ∈ keptRefs) :
    ∀ ops ∈ (tailOps : List (List (HloOp τ sig (Elt F)))), ∀ op ∈ ops, Proc.devRef .tc b ∉ op.writes := by
  intro ops hops op hop
  simp only [List.mem_cons, List.mem_nil_iff, or_false] at hops
  rcases hops with rfl | rfl | rfl
  · exact (List.forall_iff_forall_mem.mp (hostOps1_keeps b hb)) op hop
  · exact (List.forall_iff_forall_mem.mp (hostOps1_1_keeps b hb)) op hop
  · exact (List.forall_iff_forall_mem.mp (hostOps1_2_keeps b hb)) op hop

/-! ## @main around the region -/

/-- Core `c`'s TensorCore buffer contents when the region is entered, as a valuation: after the four host lines
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 40000000 in
theorem hostOps1_2_fresh : (hostOps1_2 : List (HloOp τ sig (Elt F))).Forall fun op => op.fresh = ∅ := by
  simp only [List.Forall]; repeat' constructor

/-- @main around the region: the host lines before it run from the launch contents to `V`, and what is left is the
    region CONTINUED BY the three later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- A line after the region touches only unscoped TensorCore buffers, and with nothing prefetched every such buffer
    is either one of the region's arrays or a buffer that bypasses the region: the buffers a line after the region
    may touch. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no array of the region: each writes its own result buffer, which is none of the six. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps (Pipeline.arrRef spec0 w) (arr_mem_keptRefs w) ops hops op hop

/-! ## The arguments, before and after -/

/-- No host line before the region writes an argument: the region finds it as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [List.flatten_cons, List.flatten_nil, List.append_nil]
    exact hostOps0_keeps b hb))

theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)
theorem V_main_arg5 (c : Dev nD) : V m c main_arg5 = m ((c : Thread nD τ).loc main_arg5) := V_arg m c _ (by decide)
theorem V_main_arg6 (c : Dev nD) : V m c main_arg6 = m ((c : Thread nD τ).loc main_arg6) := V_arg m c _ (by decide)

/-- An argument that is no window's array ends as launched: no line after the region writes it, the region's exit
    contents hold it at its region-entry contents (it is no array), and no line before the region writes it. -/
theorem W_arg (dats : (p : Fin 1) → (c : Dev nD) → Pipeline.Dat τ (Elt F) Unit ℕ (UR sig nD τ) ℕ (cfgs p) c) (c : Dev nD)
    (b : Ref sig .tc) (hb : b ∈ argRefs) (hne : ∀ w, Pipeline.arrRef spec0 w ≠ b) :
    Pipeline.afterTail₀ cfgs dats 0 (V0 m) tailOps c b = m ((c : Thread nD τ).loc b) := by
  have hk : b ∈ keptRefs := List.mem_append_left _ hb
  unfold Pipeline.afterTail₀
  rw [StableHlo.after_of_forall_not_mem (b := Proc.devRef .tc b) _ _ (fun op hop => by
      obtain ⟨ops, hops, h⟩ := List.mem_flatten.mp hop
      exact tail_keeps b hk ops hops op h),
    Pipeline.withArrays_of_ne _ c (V0 m c) _ b hne]
  exact V_arg m c b hb

/-- `main_arg1` … `main_arg6` are no window's array (`main_arg0` is window 0's, and is read off the region's own
    account of its arrays instead). -/
theorem W_main_arg1 (dats : (p : Fin 1) → (c : Dev nD) → Pipeline.Dat τ (Elt F) Unit ℕ (UR sig nD τ) ℕ (cfgs p) c) (c : Dev nD) :
    Pipeline.afterTail₀ cfgs dats 0 (V0 m) tailOps c main_arg1 = m ((c : Thread nD τ).loc main_arg1) :=
  W_arg m dats c _ (by decide) (by decide)
theorem W_main_arg2 (dats : (p : Fin 1) → (c : Dev nD) → Pipeline.Dat τ (Elt F) Unit ℕ (UR sig nD τ) ℕ (cfgs p) c) (c : Dev nD) :
    Pipeline.afterTail₀ cfgs dats 0 (V0 m) tailOps c main_arg2 = m ((c : Thread nD τ).loc main_arg2) :=
  W_arg m dats c _ (by decide) (by decide)
theorem W_main_arg3 (dats : (p : Fin 1) → (c : Dev nD) → Pipeline.Dat τ (Elt F) Unit ℕ (UR sig nD τ) ℕ (cfgs p) c) (c : Dev nD) :
    Pipeline.afterTail₀ cfgs dats 0 (V0 m) tailOps c main_arg3 = m ((c : Thread nD τ).loc main_arg3) :=
  W_arg m dats c _ (by decide) (by decide)
theorem W_main_arg4 (dats : (p : Fin 1) → (c : Dev nD) → Pipeline.Dat τ (Elt F) Unit ℕ (UR sig nD τ) ℕ (cfgs p) c) (c : Dev nD) :
    Pipeline.afterTail₀ cfgs dats 0 (V0 m) tailOps c main_arg4 = m ((c : Thread nD τ).loc main_arg4) :=
  W_arg m dats c _ (by decide) (by decide)
theorem W_main_arg5 (dats : (p : Fin 1) → (c : Dev nD) → Pipeline.Dat τ (Elt F) Unit ℕ (UR sig nD τ) ℕ (cfgs p) c) (c : Dev nD) :
    Pipeline.afterTail₀ cfgs dats 0 (V0 m) tailOps c main_arg5 = m ((c : Thread nD τ).loc main_arg5) :=
  W_arg m dats c _ (by decide) (by decide)
theorem W_main_arg6 (dats : (p : Fin 1) → (c : Dev nD) → Pipeline.Dat τ (Elt F) Unit ℕ (UR sig nD τ) ℕ (cfgs p) c) (c : Dev nD) :
    Pipeline.afterTail₀ cfgs dats 0 (V0 m) tailOps c main_arg6 = m ((c : Thread nD τ).loc main_arg6) :=
  W_arg m dats c _ (by decide) (by decide)

end Cert.KernelIdeal.HandHost

end
-- ==== Proof.KRunIdeal.lean ====
/-
  The kernel program's run, and its frame.

  @main is four host lines, the region, and 77 host lines after it. The host lines after the region read the region's
  result and the bypassing buffers and write only buffers of their own: none writes a window's array, none allocates.
  So the region runs from the contents the first four lines leave, its body obligation holds at every point, and the
  later lines run from the region's exit. Every weakly fair execution therefore terminates, with each window's array
  at what the proof data computes (an input's: its contents at entry) and every other unscoped buffer as the later
  lines leave it. No host line, before or after, writes an argument: the arguments end as launched.
  Stated for any float instance.
-/
import proofs.«106516_j49108656063298_1_alg».proof.Proof.KFrameIdeal
import proofs.«106516_j49108656063298_1_alg».proof.Proof.KHostIdeal

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The three lists of host lines after the region. -/
abbrev tailOps : List (List (HloOp τ sig (Elt F))) := [hostOps1, hostOps1_1, hostOps1_2]

set_option backward.isDefEq.respectTransparency.types false in
/-- From any memory with zero counters every weakly fair execution of @main terminates, and every final state has
    every window's array at what the proof data computes and every other unscoped buffer as the lines after the
    region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := HandHost.sfx_sub) (hfresh := HandHost.sfx_fresh)
    (hkeep := HandHost.sfx_keeps) (hmain := HandHost.hmain m Variants.none) (hA := A_eq m) (hΦ := fun _ _ => rfl)

/-- The first argument is window 0's array, an input: the run leaves it at its contents at entry, which no host line
    before the region wrote. -/
theorem kept_arg0 (r : PUnit × MemSt nD τ sig (Elt F))
    (h : Pipeline.FramePost cfgs (dats m) 0 (Pipeline.afterTail₀ cfgs (dats m) 0 (V0 m) tailOps) r) (c : Dev nD) :
    r.2.mem ((c : Thread nD τ).loc main_arg0) = m ((c : Thread nD τ).loc main_arg0) :=
  ((h c).1 0).trans (((dats m 0 c).arrAt_in 0 rfl _).trans ((A_eq m c 0).trans (HandHost.V_main_arg0 m c)))

/-- THE FRAME: every weakly fair execution terminates, faulting nowhere, with the seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨kept_arg0 m r h c,
      ((h c).2 main_arg1 (Pipeline.mem_restRefs_of main_arg1 (by decide) (by decide))).trans (HandHost.W_main_arg1 m (dats m) c),
      ((h c).2 main_arg2 (Pipeline.mem_restRefs_of main_arg2 (by decide) (by decide))).trans (HandHost.W_main_arg2 m (dats m) c),
      ((h c).2 main_arg3 (Pipeline.mem_restRefs_of main_arg3 (by decide) (by decide))).trans (HandHost.W_main_arg3 m (dats m) c),
      ((h c).2 main_arg4 (Pipeline.mem_restRefs_of main_arg4 (by decide) (by decide))).trans (HandHost.W_main_arg4 m (dats m) c),
      ((h c).2 main_arg5 (Pipeline.mem_restRefs_of main_arg5 (by decide) (by decide))).trans (HandHost.W_main_arg5 m (dats m) c),
      ((h c).2 main_arg6 (Pipeline.mem_restRefs_of main_arg6 (by decide) (by decide))).trans (HandHost.W_main_arg6 m (dats m) c)⟩)
    (run_main m ρ)

end Cert.KernelIdeal.HandFrame

end
-- ==== Proof.KTailDef.lean ====
/-
  What the program computes after the region, as one function.

  The region leaves an array x of 50000 rows of 128 numbers (the item rows). The lines after it join the
  50000 preference rows a with x into 100000 rows, divide every row by its Euclidean norm (the norm floored
  at 1e-12), count for every node the edges leaving it (deg), weigh every edge by
  deg^(-1/2)[source] · deg^(-1/2)[target], and run two rounds of: read the current rows at the edges' sources,
  scale each by its edge's weight, add them up at the edges' targets. The result is the normalised rows plus
  the two rounds' sums. The edges are the two rows of e (sources, then targets); an index below zero counts
  from the end.

  `tailK a x e` is that computation with one name per line of the program, in the program's order, each name
  defined from the names before it by the line's own operation.
-/
import proofs.«106516_j49108656063298_1_alg».proof.Proof.Gen.KernelIdeal

noncomputable section

namespace Cert.KernelIdeal.HandTail

open Cert.KernelIdeal Cert.KernelIdeal.Gen Idealize.ShloMosaic Idealize.ShloMosaic.TcCoe Idealize.SL.Sem

variable {F : FTy → Type} [FloatOps F]

/-- The lines after the region as one function of the preference rows `a`, the region's result `x` and the
    edge list `e`: the rows joined and normalised, plus two rounds of weighted sums over the edges. -/
noncomputable def tailK (a : FVec F S50000x128 .f32) (x : FVec F S50000x128 .f32) (e : IVec S2x1600000 32) :
    FVec F S100000x128 .f32 :=
  have v5 : FVec F S100000x128 .f32 := concatenate S100000x128 0 [⟨S50000x128, a⟩, ⟨S50000x128, x⟩] concatenates_S50000x128_S50000x128_S100000x128_d0 -- the 50000 rows of a followed by the 50000 rows of x
  have call0_v0 : FVec F S100000x128 .f32 := mulf v5 v5                  -- every entry squared
  have call0_cst : FVec F S_ .f32 := constant S_ .f32 0x00000000#32      -- 0, where each row's sum starts
  have call0_v1 : FVec F S100000 .f32 := Host.reduceAdd call0_v0 call0_cst reducesTo_S100000x128_S100000_d1 h_S_ -- each row's sum of squares
  have call0_v2 : FVec F S100000x1 .f32 := broadcastInDim S100000x1 ![0] bcast_S100000_S100000x1_0 call0_v1 -- … as one column
  have v6 : FVec F S100000x1 .f32 := Host.sqrt call0_v2                  -- each row's Euclidean norm
  have cst : FVec F S_ .f32 := constant S_ .f32 0x2B8CBCCC#32            -- the floor 1e-12 under a norm
  have v7 : FVec F S100000x1 .f32 := broadcastInDim S100000x1 ![] bcast_S_S100000x1 cst -- … at every row
  have v8 : FVec F S100000x1 .f32 := maximumf v6 v7                      -- each row's norm, at least the floor
  have v9 : FVec F S100000x128 .f32 := broadcastInDim S100000x128 ![0, 1] bcast_S100000x1_S100000x128_0_1 v8 -- … repeated along the row
  have v10 : FVec F S100000x128 .f32 := Host.divf v5 v9                  -- n: each row divided by its clamped norm
  have v11 : IVec S1x1600000 32 := extractStridedSlice S1x1600000 ![0, 0] e slices_S2x1600000_S1x1600000_0_0 -- the first row of e, the edges' sources
  have v12 : IVec S1600000 32 := shapeCast S1600000 v11 shapeCasts_S1x1600000_S1600000 -- src: … as a vector
  have v13 : IVec S1x1600000 32 := extractStridedSlice S1x1600000 ![1, 0] e slices_S2x1600000_S1x1600000_1_0 -- the second row of e, the edges' targets
  have v14 : IVec S1600000 32 := shapeCast S1600000 v13 shapeCasts_S1x1600000_S1600000 -- dst: … as a vector
  have cst_0 : FVec F S_ .f32 := constant S_ .f32 0x3F800000#32          -- 1
  have v15 : FVec F S1600000 .f32 := broadcastInDim S1600000 ![] bcast_S_S1600000 cst_0 -- a one for every edge
  have cst_1 : FVec F S_ .f32 := constant S_ .f32 0x00000000#32          -- 0
  have v16 : FVec F S100000 .f32 := broadcastInDim S100000 ![] bcast_S_S100000 cst_1 -- a zero for every node
  have v17 : IVec S1600000x1 32 := broadcastInDim S1600000x1 ![0] bcast_S1600000_S1600000x1_0 v12 -- src as one column of indices
  have v18 : FVec F S100000 .f32 := Host.scatterAdd scatter_S100000_S1600000x1_S1600000_n_0_0_1 v16 v17 v15 -- deg: for every node the number of edges whose source it is (the ones added at src)
  have cst_2 : FVec F S_ .f32 := constant S_ .f32 0xBF000000#32          -- -1/2
  have v19 : FVec F S100000 .f32 := broadcastInDim S100000 ![] bcast_S_S100000 cst_2 -- … for every node
  have v20 : FVec F S100000 .f32 := Host.powf v18 v19                    -- deg ^ (-1/2)
  have c : IVec S_ 32 := constantI S_ 32 0#32                            -- 0
  have v21 : IVec S1600000 32 := broadcastInDim S1600000 ![] bcast_S_S1600000 c -- … for every edge
  have v22 : IVec S1600000 1 := cmpi .slt v12 v21                        -- src < 0
  have c_3 : IVec S_ 32 := constantI S_ 32 100000#32                     -- 100000, the number of nodes
  have v23 : IVec S1600000 32 := broadcastInDim S1600000 ![] bcast_S_S1600000 c_3 -- … for every edge
  have v24 : IVec S1600000 32 := addi v12 v23                            -- src + 100000
  have v25 : IVec S1600000 32 := select v22 v24 v12                      -- src with a negative index counted from the end
  have v26 : IVec S1600000x1 32 := broadcastInDim S1600000x1 ![0] bcast_S1600000_S1600000x1_0 v25 -- … as one column of indices
  have v27 : FVec F S1600000 .f32 := Host.gather gather_S100000_S1600000x1_S1600000_n_0_n_n_0_1_1 v20 v26 -- deg ^ (-1/2) at every edge's source
  have c_4 : IVec S_ 32 := constantI S_ 32 0#32                          -- 0
  have v28 : IVec S1600000 32 := broadcastInDim S1600000 ![] bcast_S_S1600000 c_4 -- … for every edge
  have v29 : IVec S1600000 1 := cmpi .slt v14 v28                        -- dst < 0
  have c_5 : IVec S_ 32 := constantI S_ 32 100000#32                     -- 100000
  have v30 : IVec S1600000 32 := broadcastInDim S1600000 ![] bcast_S_S1600000 c_5 -- … for every edge
  have v31 : IVec S1600000 32 := addi v14 v30                            -- dst + 100000
  have v32 : IVec S1600000 32 := select v29 v31 v14                      -- dst with a negative index counted from the end
  have v33 : IVec S1600000x1 32 := broadcastInDim S1600000x1 ![0] bcast_S1600000_S1600000x1_0 v32 -- … as one column of indices
  have v34 : FVec F S1600000 .f32 := Host.gather gather_S100000_S1600000x1_S1600000_n_0_n_n_0_1_1 v20 v33 -- deg ^ (-1/2) at every edge's target
  have v35 : FVec F S1600000 .f32 := mulf v27 v34                        -- w: the edge's weight deg^(-1/2)[src] · deg^(-1/2)[dst]
  have v36 : FVec F S1600000x1 .f32 := broadcastInDim S1600000x1 ![0] bcast_S1600000_S1600000x1_0 v35 -- w as one column
  have c_6 : IVec S_ 32 := constantI S_ 32 0#32                          -- 0
  have v37 : IVec S1600000 32 := broadcastInDim S1600000 ![] bcast_S_S1600000 c_6 -- … for every edge
  have v38 : IVec S1600000 1 := cmpi .slt v12 v37                        -- src < 0
  have c_7 : IVec S_ 32 := constantI S_ 32 100000#32                     -- 100000
  have v39 : IVec S1600000 32 := broadcastInDim S1600000 ![] bcast_S_S1600000 c_7 -- … for every edge
  have v40 : IVec S1600000 32 := addi v12 v39                            -- src + 100000
  have v41 : IVec S1600000 32 := select v38 v40 v12                      -- src with a negative index counted from the end
  have v42 : IVec S1600000x1 32 := broadcastInDim S1600000x1 ![0] bcast_S1600000_S1600000x1_0 v41 -- … as one column of indices
  have v43 : FVec F S1600000x128 .f32 := Host.gather gather_S100000x128_S1600000x1_S1600000x128_1_0_n_n_0_1_1128 v10 v42 -- n's row at every edge's source
  have v44 : FVec F S1600000x128 .f32 := broadcastInDim S1600000x128 ![0, 1] bcast_S1600000x1_S1600000x128_0_1 v36 -- w repeated along the row
  have v45 : FVec F S1600000x128 .f32 := mulf v44 v43                    -- the first round's messages w · n[src]
  have cst_8 : FVec F S_ .f32 := constant S_ .f32 0x00000000#32          -- 0
  have v46 : FVec F S100000x128 .f32 := broadcastInDim S100000x128 ![] bcast_S_S100000x128 cst_8 -- the zero matrix, a row per node
  have v47 : IVec S1600000x1 32 := broadcastInDim S1600000x1 ![0] bcast_S1600000_S1600000x1_0 v14 -- dst as one column of indices
  have v48 : FVec F S100000x128 .f32 := Host.scatterAdd scatter_S100000x128_S1600000x1_S1600000x128_1_0_0_1 v46 v47 v45 -- h1: for every node the sum of the messages of the edges arriving at it
  have v49 : FVec F S100000x128 .f32 := addf v10 v48                     -- n + h1
  have v50 : FVec F S1600000x1 .f32 := broadcastInDim S1600000x1 ![0] bcast_S1600000_S1600000x1_0 v35 -- w as one column
  have c_9 : IVec S_ 32 := constantI S_ 32 0#32                          -- 0
  have v51 : IVec S1600000 32 := broadcastInDim S1600000 ![] bcast_S_S1600000 c_9 -- … for every edge
  have v52 : IVec S1600000 1 := cmpi .slt v12 v51                        -- src < 0
  have c_10 : IVec S_ 32 := constantI S_ 32 100000#32                    -- 100000
  have v53 : IVec S1600000 32 := broadcastInDim S1600000 ![] bcast_S_S1600000 c_10 -- … for every edge
  have v54 : IVec S1600000 32 := addi v12 v53                            -- src + 100000
  have v55 : IVec S1600000 32 := select v52 v54 v12                      -- src with a negative index counted from the end
  have v56 : IVec S1600000x1 32 := broadcastInDim S1600000x1 ![0] bcast_S1600000_S1600000x1_0 v55 -- … as one column of indices
  have v57 : FVec F S1600000x128 .f32 := Host.gather gather_S100000x128_S1600000x1_S1600000x128_1_0_n_n_0_1_1128 v48 v56 -- h1's row at every edge's source
  have v58 : FVec F S1600000x128 .f32 := broadcastInDim S1600000x128 ![0, 1] bcast_S1600000x1_S1600000x128_0_1 v50 -- w repeated along the row
  have v59 : FVec F S1600000x128 .f32 := mulf v58 v57                    -- the second round's messages w · h1[src]
  have cst_11 : FVec F S_ .f32 := constant S_ .f32 0x00000000#32         -- 0
  have v60 : FVec F S100000x128 .f32 := broadcastInDim S100000x128 ![] bcast_S_S100000x128 cst_11 -- the zero matrix, a row per node
  have v61 : IVec S1600000x1 32 := broadcastInDim S1600000x1 ![0] bcast_S1600000_S1600000x1_0 v14 -- dst as one column of indices
  have v62 : FVec F S100000x128 .f32 := Host.scatterAdd scatter_S100000x128_S1600000x1_S1600000x128_1_0_0_1 v60 v61 v59 -- h2: for every node the sum of the second round's messages arriving at it
  have v63 : FVec F S100000x128 .f32 := addf v49 v62                     -- n + h1 + h2
  v63

end Cert.KernelIdeal.HandTail

end
-- ==== Proof.KTail.lean ====
/-
  The host lines of the program read as values.

  The program's host operations run in order over the device's arrays; what an array holds afterwards is the
  composition of the operations' functions applied to what the arrays held before, whatever those contents were.

  * Before the region: the two weight matrices cast to bf16, the two bias vectors reshaped to one-row matrices;
    the feature matrix is not written.
  * After the region: the result array holds `tailK` of the preference rows, the region's result and the edge
    list — the rows joined, each divided by its clamped norm, the degrees counted over the edges' sources, every
    edge weighted by deg^(-1/2) at its two ends, and two rounds of gather–scale–scatter-add added on.
-/
import proofs.«106516_j49108656063298_1_alg».proof.Proof.KTailDef
import proofs.«106516_j49108656063298_1_alg».proof.Proof.Gen.KernelIdeal.Launch
import Idealize.ShloMosaic.Lib.StableHlo.Run

noncomputable section

namespace Cert.KernelIdeal.HandTail

open Cert.KernelIdeal Cert.KernelIdeal.Gen Idealize.ShloMosaic Idealize.ShloMosaic.TcCoe Idealize.SL.Sem Idealize.ShloMosaic.StableHlo

variable {F : FTy → Type} [FloatOps F]

/-! ## The four lines before the region -/

/-- The first weight matrix cast to bf16. -/
theorem pre_v0 (W : Valuation τ sig (Elt F)) :
    after (List.flatten [hostOps0]) W (Proc.devRef .tc main_v0)
      = truncf .bf16 (W (Proc.devRef .tc main_arg2)) bitsLt_bf16_f32 := by
  simp only [hostOps0, List.flatten_cons, List.flatten_nil, List.append_nil, List.cons_append, List.nil_append]
  after_results

/-- The second weight matrix cast to bf16. -/
theorem pre_v1 (W : Valuation τ sig (Elt F)) :
    after (List.flatten [hostOps0]) W (Proc.devRef .tc main_v1)
      = truncf .bf16 (W (Proc.devRef .tc main_arg4)) bitsLt_bf16_f32 := by
  simp only [hostOps0, List.flatten_cons, List.flatten_nil, List.append_nil, List.cons_append, List.nil_append]
  after_results

/-- The first bias vector as a one-row matrix. -/
theorem pre_v2 (W : Valuation τ sig (Elt F)) :
    after (List.flatten [hostOps0]) W (Proc.devRef .tc main_v2)
      = shapeCast S1x512 (W (Proc.devRef .tc main_arg3)) shapeCasts_S512_S1x512 := by
  simp only [hostOps0, List.flatten_cons, List.flatten_nil, List.append_nil, List.cons_append, List.nil_append]
  after_results
  rfl

/-- The second bias vector as a one-row matrix. -/
theorem pre_v3 (W : Valuation τ sig (Elt F)) :
    after (List.flatten [hostOps0]) W (Proc.devRef .tc main_v3)
      = shapeCast S1x128 (W (Proc.devRef .tc main_arg5)) shapeCasts_S128_S1x128 := by
  simp only [hostOps0, List.flatten_cons, List.flatten_nil, List.append_nil, List.cons_append, List.nil_append]
  after_results
  rfl

/-- No line before the region writes the feature matrix. -/
theorem pre_arg0 (W : Valuation τ sig (Elt F)) :
    after (List.flatten [hostOps0]) W (Proc.devRef .tc main_arg0) = W (Proc.devRef .tc main_arg0) := by
  simp only [hostOps0, List.flatten_cons, List.flatten_nil, List.append_nil, List.cons_append, List.nil_append]
  after_results

/-! ## The 77 lines after the region -/

/-- After the lines that follow the region, the result array holds `tailK` of the preference rows, the region's
    result and the edge list: each line's result read at its own array is the line's function of its operands'
    contents, every other array is as the earlier lines left it, and the composition of the 77 functions is
    `tailK` with its names substituted. -/
theorem tail_v63 (W : Valuation τ sig (Elt F)) :
    after (List.flatten [hostOps1, hostOps1_1, hostOps1_2]) W (Proc.devRef .tc main_v63)
      = tailK (W (Proc.devRef .tc main_arg1)) (W (Proc.devRef .tc main_v4)) (W (Proc.devRef .tc main_arg6)) := by
  simp only [hostOps1, hostOps1_1, hostOps1_2, List.flatten_cons, List.flatten_nil, List.append_nil, List.cons_append, List.nil_append]
  after_results_simp
  rfl

end Cert.KernelIdeal.HandTail

end
-- ==== Proof.RefSpec.lean ====
/-
  The reference's item-feature network as ONE function of its five argument arrays: features · W1 + b1 (the bias
  a vector laid out as one row and repeated down the 50000 rows), the leaky rectifier with slope 0.01 — x where
  x ≥ 0, 0.01 · x elsewhere —, then · W2 + b2. It is the reference's first ten lines with the two functions it calls
  written out, each intermediate named as the program names it; nothing is proved here.
-/
import proofs.«106516_j49108656063298_1_alg».proof.Proof.Gen.ReferenceIdeal

noncomputable section

namespace Cert.ReferenceIdeal.Spec

open Cert.ReferenceIdeal Cert.ReferenceIdeal.Gen Idealize.ShloMosaic

variable {F : FTy → Type} [FloatOps F]

/-- The leaky rectifier of slope `s` on a 50000 × 512 array, in the reference's spelling: the comparison against a
    zero array, the slope repeated to the array's shape and multiplied in from the left, the choice. -/
def leaky (h : FVec F S50000x512 .f32) (s : FVec F S_ .f32) : FVec F S50000x512 .f32 :=
  have z : FVec F S50000x512 .f32 := broadcastInDim S50000x512 ![] bcast_S_S50000x512 (constant S_ .f32 0x00000000#32)
  have ge : IVec S50000x512 1 := cmpf .oge h z
  have sl : FVec F S50000x512 .f32 := broadcastInDim S50000x512 ![] bcast_S_S50000x512 (id s)
  have sh : FVec F S50000x512 .f32 := mulf sl h
  select ge h sh

/-- features · W1 + b1, rectified, · W2 + b2: the 50000 × 128 item features. -/
def mlpR (x : FVec F S50000x4096 .f32) (w1 : FVec F S4096x512 .f32) (b1 : FVec F S512 .f32)
    (w2 : FVec F S512x128 .f32) (b2 : FVec F S128 .f32) : FVec F S50000x128 .f32 :=
  have v0 : FVec F S50000x512 .f32 := Host.dotGeneral dot_S50000x4096_S4096x512_S50000x512_1_0_0_1_n_n none x w1
  have v1 : FVec F S1x512 .f32 := broadcastInDim S1x512 ![1] bcast_S512_S1x512_1 b1
  have v2 : FVec F S50000x512 .f32 := broadcastInDim S50000x512 ![0, 1] bcast_S1x512_S50000x512_0_1 v1
  have v3 : FVec F S50000x512 .f32 := addf v0 v2
  have v4 : FVec F S50000x512 .f32 := leaky v3 (constant S_ .f32 0x3C23D70A#32)
  have v5 : FVec F S50000x128 .f32 := Host.dotGeneral dot_S50000x512_S512x128_S50000x128_1_0_0_1_n_n none v4 w2
  have v6 : FVec F S1x128 .f32 := broadcastInDim S1x128 ![1] bcast_S128_S1x128_1 b2
  have v7 : FVec F S50000x128 .f32 := broadcastInDim S50000x128 ![0, 1] bcast_S1x128_S50000x128_0_1 v6
  addf v5 v7

end Cert.ReferenceIdeal.Spec

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«106516_j49108656063298_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«106516_j49108656063298_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.MlpRect.lean ====
/-
  THE LEAKY RECTIFIER, ENTRY BY ENTRY, at the ideal values.

  The rectifier sends a number u to u where u ≥ 0 and to 0.01 · u elsewhere.  Two spellings of it occur: on the vector
  unit the zero word and the slope word are splat over the array; on the host each is a scalar constant broadcast to the
  array's shape.  Both are the same function of each entry: compare with the value of the zero word, multiply by the value
  of the slope word from the left, choose.  The two words are the same on both sides and are never evaluated.
-/
import proofs.«106516_j49108656063298_1_alg».proof.Proof.Gen.KernelIdeal.Skeleton
import proofs.«106516_j49108656063298_1_alg».proof.Proof.RefSpec
import Idealize.ShloMosaic.PureOps.Ideal

noncomputable section

namespace Cert.Bridge

open Idealize.ShloMosaic

/-- The level the rectifier compares with: the value of the all-zero word. -/
def zw : EReal := Ideal.ofBits .f32 0x00000000#32

/-- The rectifier's slope: the value of the word of 0.01. -/
def sw : EReal := Ideal.ofBits .f32 0x3C23D70A#32

/-- The leaky rectifier on one number: `u` where `u ≥ zw`, `sw · u` elsewhere. -/
def lrelu (u : EReal) : EReal :=
  Scalar.select (FloatOps.cmpf (F := Ideal) (φ := .f32) .oge u zw) u (sw * u)

/-- The leaky rectifier on every entry of an array. -/
def lreluArr {s : Shape} (y : s.Idx → EReal) : s.Idx → EReal := fun i => lrelu (y i)

theorem lreluArr_apply {s : Shape} (y : s.Idx → EReal) (i : s.Idx) : lreluArr y i = lrelu (y i) := rfl

/-- The vector unit's spelling: compare with the zero word splat over the array, multiply by the slope word splat over
    the array, choose. -/
theorem krect {s : Shape} (y : FVec Ideal s .f32) :
    select (cmpf .oge y (broadcast s (Scalar.ofBits (F := Ideal) .f32 0x00000000#32))) y
        (mulf (broadcast s (Scalar.ofBits (F := Ideal) .f32 0x3C23D70A#32)) y)
      = lreluArr y := rfl

/-- The host's spelling: the zero constant and the slope constant broadcast from scalars. -/
theorem hrect (h : FVec Ideal Cert.ReferenceIdeal.S50000x512 .f32) :
    Cert.ReferenceIdeal.Spec.leaky (F := Ideal) h (constant (F := Ideal) Cert.ReferenceIdeal.S_ .f32 0x3C23D70A#32)
      = lreluArr h := rfl

end Cert.Bridge

end
-- ==== Proof.MlpRows.lean ====
/-
  A BLOCK OF 400 ROWS OF THE KERNEL'S TWO-LAYER NETWORK IS THOSE ROWS OF THE REFERENCE'S NETWORK, at the ideal values.

  Both programs compute, on every row of the features, the row  leaky(x · W1 + b1) · W2 + b2,  where leaky u is u where
  u ≥ 0 and 0.01 · u elsewhere.  The kernel does it on a block of 400 rows: the vector unit's matrix product into a zero
  accumulator, the operands narrowed to the 16-bit format (at the ideal values a change of format does nothing), each bias
  laid out as one row and repeated down the block.  The reference does it on all 50000 rows: the host's contraction, each
  bias broadcast first to one row and then down the rows.  Each of the three steps acts on a row by itself: a dense layer's
  output row p is  j ↦ (∑ k, a p k · w k j) + b j,  which reads row p of its operand and nothing else of it, and the
  rectifier is entry by entry.  So both programs are the same function of whole arrays at two row counts
  (`kernel_block`, `reference_all`), and when row y of the block is row 400 · t + y of the features, row y of the kernel's
  result is row 400 · t + y of the reference's (`mlp_block_rows`).  No sum is regrouped and no product distributed, so
  nothing about finiteness is used.
-/
import proofs.«106516_j49108656063298_1_alg».proof.Proof.Gen.KernelIdeal.Skeleton
import proofs.«106516_j49108656063298_1_alg».proof.Proof.RefSpec
import proofs.«106516_j49108656063298_1_alg».proof.Proof.LibRowBias
import proofs.«106516_j49108656063298_1_alg».proof.Proof.LibPlainDot
import proofs.«106516_j49108656063298_1_alg».proof.Proof.MlpRect

noncomputable section

open scoped BigOperators

namespace Cert.Bridge

open Idealize.ShloMosaic Idealize.ShloMosaic.ValueIdx Cert.DenseRow Cert.RowBias

/-! ## Each program as dense layer, rectifier, dense layer -/

/-- The kernel's body on a block of 400 rows, its two biases arriving as one-row arrays: the dense layer with the first
    weights and the first bias's row, the rectifier, the dense layer with the second weights and the second bias's row.
    Both matrix products contract the left operand's columns with the right operand's rows. -/
theorem kernel_block (xb : FVec Ideal Cert.KernelIdeal.S400x4096 .f32) (w1 : FVec Ideal Cert.KernelIdeal.S4096x512 .f32)
    (r1 : FVec Ideal Cert.KernelIdeal.S1x512 .f32) (w2 : FVec Ideal Cert.KernelIdeal.S512x128 .f32)
    (r2 : FVec Ideal Cert.KernelIdeal.S1x128 .f32) :
    Cert.KernelIdeal.Gen.k0_pay1 (F := Ideal) xb (truncf .bf16 w1 Cert.KernelIdeal.Gen.bitsLt_bf16_f32) r1
        (truncf .bf16 w2 Cert.KernelIdeal.Gen.bitsLt_bf16_f32) r2
      = layerArr (lreluArr (layerArr xb w1 (unrow r1))) w2 (unrow r2) := by
  unfold Cert.KernelIdeal.Gen.k0_pay1
  dsimp only
  rw [klayer1Arr Cert.KernelIdeal.dot_S400x4096_S4096x512_S400x512_1_0_0_1_n_n rfl rfl
      (Cert.PlainDot.lhs_at 400 4096 512) (Cert.PlainDot.rhs_at 400 4096 512),
    krect,
    klayer1Arr Cert.KernelIdeal.dot_S400x512_S512x128_S400x128_1_0_0_1_n_n rfl rfl
      (Cert.PlainDot.lhs_at 400 512 128) (Cert.PlainDot.rhs_at 400 512 128),
    shapeCast_self, shapeCast_self]
  -- what is left are the changes of format, which do nothing
  rfl

/-- The reference's network on all 50000 rows: the same three steps with the bias vectors themselves. -/
theorem reference_all (x : FVec Ideal Cert.ReferenceIdeal.S50000x4096 .f32)
    (w1 : FVec Ideal Cert.ReferenceIdeal.S4096x512 .f32) (b1 : FVec Ideal Cert.ReferenceIdeal.S512 .f32)
    (w2 : FVec Ideal Cert.ReferenceIdeal.S512x128 .f32) (b2 : FVec Ideal Cert.ReferenceIdeal.S128 .f32) :
    Cert.ReferenceIdeal.Spec.mlpR (F := Ideal) x w1 b1 w2 b2 = layerArr (lreluArr (layerArr x w1 b1)) w2 b2 := by
  unfold Cert.ReferenceIdeal.Spec.mlpR
  dsimp only
  rw [hlayerArr Cert.ReferenceIdeal.dot_S50000x4096_S4096x512_S50000x512_1_0_0_1_n_n rfl rfl
      (Cert.PlainDot.lhs_at 50000 4096 512) (Cert.PlainDot.rhs_at 50000 4096 512),
    hrect,
    hlayerArr Cert.ReferenceIdeal.dot_S50000x512_S512x128_S50000x128_1_0_0_1_n_n rfl rfl
      (Cert.PlainDot.lhs_at 50000 512 128) (Cert.PlainDot.rhs_at 50000 512 128)]

/-! ## A block's rows are the whole array's rows -/

/-- Block `t` of the features through the kernel's body, with the weights narrowed and the biases reshaped to one row as
    the host does before the kernel, read at row `y`: the reference's network at row `400 · t + y`. -/
theorem mlp_block_rows
    (x : FVec Ideal Cert.ReferenceIdeal.S50000x4096 .f32) (w1 : FVec Ideal Cert.ReferenceIdeal.S4096x512 .f32)
    (b1 : FVec Ideal Cert.ReferenceIdeal.S512 .f32)
    (w2 : FVec Ideal Cert.ReferenceIdeal.S512x128 .f32) (b2 : FVec Ideal Cert.ReferenceIdeal.S128 .f32)
    (t : Fin 125) (xb : Vec Ideal Cert.KernelIdeal.S400x4096 .f32)
    (hx : ∀ (y : Fin 400) (k : Fin 4096),
      xb (ValueIdx.ix2 y k) = x (ValueIdx.ix2 (⟨400 * t.val + y.val, by omega⟩ : Fin 50000) k))
    (y : Fin 400) (j : Fin 128) :
    Cert.KernelIdeal.Gen.k0_pay1 (F := Ideal) xb
        (truncf .bf16 w1 Cert.KernelIdeal.Gen.bitsLt_bf16_f32)
        (shapeCast Cert.KernelIdeal.S1x512 b1 Cert.KernelIdeal.Gen.shapeCasts_S512_S1x512)
        (truncf .bf16 w2 Cert.KernelIdeal.Gen.bitsLt_bf16_f32)
        (shapeCast Cert.KernelIdeal.S1x128 b2 Cert.KernelIdeal.Gen.shapeCasts_S128_S1x128) (ValueIdx.ix2 y j)
      = Cert.ReferenceIdeal.Spec.mlpR (F := Ideal) x w1 b1 w2 b2
          (ValueIdx.ix2 (⟨400 * t.val + y.val, by omega⟩ : Fin 50000) j) := by
  rw [kernel_block, reference_all, unrow_cast, unrow_cast]
  -- the second layer reads row y of the rectified first layer, which is entry by entry the rectified row 400 · t + y
  refine layerArr_rows _ _ w2 b2 y _ (fun k => ?_) j
  rw [lreluArr_apply, lreluArr_apply, layerArr_rows xb x w1 b1 y _ (hx y) k]

end Cert.Bridge

end
-- ==== Proof.KValue.lean ====
/-
  What the kernel program's result array holds, at the exact instance.

  Point t of the region writes back rows 400·t … 400·t + 399 of the item features, and these 125 blocks of 400 rows
  fill the 50000-row array. What point t writes is the body's value of the block of rows it was handed and of the two
  weight matrices and two biases whole; row y of that value is row 400·t + y of the reference's network of the whole
  arrays, because a row of a matrix product reads only the same row of its left operand. So the region's result IS
  the reference's item features of the arguments, and the program's result is the shared host tail of the
  preferences, those features and the edge list.
-/
import proofs.«106516_j49108656063298_1_alg».proof.Proof.KRunIdeal
import proofs.«106516_j49108656063298_1_alg».proof.Proof.KTail
import proofs.«106516_j49108656063298_1_alg».proof.Proof.MlpRows

set_option maxRecDepth 16384

noncomputable section

namespace Cert.KernelIdeal.HandValue

open Cert.KernelIdeal Cert.KernelIdeal.Gen Cert.KernelIdeal.HandFrame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the features' window and the output's move one block of rows per point;
    the weights' and biases' windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The item features as the reference computes them, of the arguments as launched. -/
abbrev items (c : Dev nD) : FVec Ideal S50000x128 .f32 :=
  Cert.ReferenceIdeal.Spec.mlpR (F := Ideal) (m ((c : Thread nD τ).loc main_arg0)) (m ((c : Thread nD τ).loc main_arg2))
    (m ((c : Thread nD τ).loc main_arg3)) (m ((c : Thread nD τ).loc main_arg4)) (m ((c : Thread nD τ).loc main_arg5))

/-! ## The blocks the body is handed -/

/-- A grid point's number is below 125. -/
theorem t_lt (t : Fin cfg0.N) : t.val < 125 := lt_of_lt_of_eq t.isLt (show cfg0.N = 125 from N_0)

/-- The first weight matrix's window is its array whole, at every point: the array after the cast to bf16. -/
theorem blk1 (c : Dev nD) (t : Fin cfg0.N) : iblk m c 1 t = (truncf .bf16 (m ((c : Thread nD τ).loc main_arg2)) bitsLt_bf16_f32 : FVec Ideal S4096x512 .bf16) := by
  obtain ⟨-, -, e0, e1, -⟩ := idx_facts t
  refine Eq.trans ?_ (HandTail.pre_v0 (F := Ideal) (fun b => m (c, b)))
  funext j
  have hj : ((cfg0.win 1).blk t).view.emb j = j := by
    funext a; apply Fin.ext
    match a with
    | ⟨0, _⟩ => show win0_1.index t (0 : Fin 2) * 4096 + 1 * (j 0).val = (j 0).val; omega
    | ⟨1, _⟩ => show win0_1.index t (1 : Fin 2) * 512 + 1 * (j 1).val = (j 1).val; omega
  exact congrArg (V m c main_v0) hj

/-- The first bias's window is its one row whole. -/
theorem blk2 (c : Dev nD) (t : Fin cfg0.N) : iblk m c 2 t = shapeCast S1x512 (m ((c : Thread nD τ).loc main_arg3)) shapeCasts_S512_S1x512 := by
  obtain ⟨-, -, -, -, e0, e1, -⟩ := idx_facts t
  refine Eq.trans ?_ (HandTail.pre_v2 (F := Ideal) (fun b => m (c, b)))
  funext j
  have hj : ((cfg0.win 2).blk t).view.emb j = j := by
    funext a; apply Fin.ext
    match a with
    | ⟨0, _⟩ => show win0_2.index t (0 : Fin 2) * 1 + 1 * (j 0).val = (j 0).val; omega
    | ⟨1, _⟩ => show win0_2.index t (1 : Fin 2) * 512 + 1 * (j 1).val = (j 1).val; omega
  exact congrArg (V m c main_v2) hj

/-- The second weight matrix's window is its array whole. -/
theorem blk3 (c : Dev nD) (t : Fin cfg0.N) : iblk m c 3 t = (truncf .bf16 (m ((c : Thread nD τ).loc main_arg4)) bitsLt_bf16_f32 : FVec Ideal S512x128 .bf16) := by
  obtain ⟨-, -, -, -, -, -, e0, e1, -⟩ := idx_facts t
  refine Eq.trans ?_ (HandTail.pre_v1 (F := Ideal) (fun b => m (c, b)))
  funext j
  have hj : ((cfg0.win 3).blk t).view.emb j = j := by
    funext a; apply Fin.ext
    match a with
    | ⟨0, _⟩ => show win0_3.index t (0 : Fin 2) * 512 + 1 * (j 0).val = (j 0).val; omega
    | ⟨1, _⟩ => show win0_3.index t (1 : Fin 2) * 128 + 1 * (j 1).val = (j 1).val; omega
  exact congrArg (V m c main_v1) hj

/-- The second bias's window is its one row whole. -/
theorem blk4 (c : Dev nD) (t : Fin cfg0.N) : iblk m c 4 t = shapeCast S1x128 (m ((c : Thread nD τ).loc main_arg5)) shapeCasts_S128_S1x128 := by
  obtain ⟨-, -, -, -, -, -, -, -, e0, e1, -⟩ := idx_facts t
  refine Eq.trans ?_ (HandTail.pre_v3 (F := Ideal) (fun b => m (c, b)))
  funext j
  have hj : ((cfg0.win 4).blk t).view.emb j = j := by
    funext a; apply Fin.ext
    match a with
    | ⟨0, _⟩ => show win0_4.index t (0 : Fin 2) * 1 + 1 * (j 0).val = (j 0).val; omega
    | ⟨1, _⟩ => show win0_4.index t (1 : Fin 2) * 128 + 1 * (j 1).val = (j 1).val; omega
  exact congrArg (V m c main_v3) hj

/-- Row y of the features' block at point t is row 400·t + y of the features as launched. -/
theorem blk0 (c : Dev nD) (t : Fin cfg0.N) (y : Fin 400) (k : Fin 4096) :
    iblk m c 0 t (ix2 y k) = m ((c : Thread nD τ).loc main_arg0) (ix2 (⟨400 * t.val + y.val, by have := t_lt t; omega⟩ : Fin 50000) k) := by
  obtain ⟨e0, e1, -⟩ := idx_facts t
  have hj : ((cfg0.win 0).blk t).view.emb (ix2 y k) = ix2 (⟨400 * t.val + y.val, by have := t_lt t; omega⟩ : Fin 50000) k := by
    funext a; apply Fin.ext
    match a with
    | ⟨0, _⟩ => show win0_0.index t (0 : Fin 2) * 400 + 1 * y.val = 400 * t.val + y.val; omega
    | ⟨1, _⟩ => show win0_0.index t (1 : Fin 2) * 4096 + 1 * k.val = k.val; omega
  exact (congrArg (V m c main_arg0) hj).trans (congrFun (HandHost.V_main_arg0 m c) _)

/-! ## What a point writes back, and the whole array -/

/-- WHAT POINT t WRITES BACK is block t of the item features. -/
theorem flushed_eq (c : Dev nD) (t : Fin cfg0.N) :
    (dats m 0 c).flushed 5 t = ((cfg0.win 5).blk t).view.read (Elt Ideal) (items m c) := by
  show (cfg0.win 5).cut (grid0.coords t) ((dats m 0 c).after 5 t) = _
  rw [after_5]
  unfold outBlock
  rw [View.canon_unit_zero hz]
  simp only [View.ld_unit_zero (S := S400x4096) hz, View.ld_unit_zero (S := S4096x512) hz, View.ld_unit_zero (S := S1x512) hz,
    View.ld_unit_zero (S := S512x128) hz, View.ld_unit_zero (S := S1x128) hz]
  rw [blk1, blk2, blk3, blk4]
  obtain ⟨-, -, -, -, -, -, -, -, -, -, e0, e1⟩ := idx_facts t
  funext j
  obtain ⟨y, q, rfl⟩ : ∃ (y : Fin 400) (q : Fin 128), j = ix2 y q := ⟨j 0, j 1, eq_ix2 j⟩
  have ht : t.val < 125 := t_lt t
  have he : ((cfg0.win 5).blk t).view.emb (ix2 y q) = ix2 (⟨400 * t.val + y.val, by omega⟩ : Fin 50000) q := by
    funext a; apply Fin.ext
    match a with
    | ⟨0, _⟩ => show win0_5.index t (0 : Fin 2) * 400 + 1 * y.val = 400 * t.val + y.val; omega
    | ⟨1, _⟩ => show win0_5.index t (1 : Fin 2) * 128 + 1 * q.val = q.val; omega
  show k0_pay1 (F := Ideal) (iblk m c 0 t) _ _ _ _ (ix2 y q) = items m c (((cfg0.win 5).blk t).view.emb (ix2 y q))
  rw [he]
  exact Cert.Bridge.mlp_block_rows _ _ _ _ _ ⟨t.val, ht⟩ (iblk m c 0 t) (fun y k => blk0 m c t y k) y q

/-- An index of the array is in point t's block iff each coordinate is in the block's range on its axis. -/
theorem mem_blk (t : Fin cfg0.N) (i : S50000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v4).slice (win0_5.rect t)).set ↔ _
  rw [View.set_slice_whole, Rect.mem_set_unit]
  exact Iff.rfl

/-- Every row lies in some point's block: row r in the block of point r / 400. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 400, by rw [show cfg0.N = 125 from N_0]; omega⟩
  obtain ⟨-, -, -, -, -, -, -, -, -, -, e0, e1⟩ := idx_facts t
  refine ⟨t, flush0_5 t, ?_⟩
  rw [mem_blk]
  have hq : t.val = (i 0).val / 400 := rfl
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- THE REGION'S RESULT after the run is the item features of the arguments. -/
theorem final5 (c : Dev nD) : (dats m 0 c).arrAt 5 cfg0.N = items m c :=
  (dats m 0 c).arrAt_eq_of_cover 5 (items m c) (fun t _ => flushed_eq m c t) (cover)

/-! ## The run, read -/

/-- The program's result after the host lines that follow the region: the shared tail of the preferences, the item
    features and the edge list. -/
theorem tail_read (c : Dev nD) :
    Pipeline.afterTail₀ cfgs (dats m) 0 (V0 m) tailOps c main_v63
      = HandTail.tailK (F := Ideal) (m ((c : Thread nD τ).loc main_arg1)) (items m c) (m ((c : Thread nD τ).loc main_arg6)) := by
  unfold Pipeline.afterTail₀
  show StableHlo.after (List.flatten [hostOps1, hostOps1_1, hostOps1_2]) _ (Proc.devRef .tc main_v63) = _
  rw [HandTail.tail_v63]
  refine congr (congr (congrArg (HandTail.tailK (F := Ideal)) ?_) ?_) ?_
  · exact (Pipeline.withArrays_of_ne _ c (V0 m c) _ main_arg1 (by exact (by decide : ∀ w, Pipeline.arrRef spec0 w ≠ main_arg1))).trans
      (HandHost.V_main_arg1 m c)
  · exact (Pipeline.withArrays_arr spec0 launch0.win.arr_inj c _ _ 5).trans (final5 m c)
  · exact (Pipeline.withArrays_of_ne _ c (V0 m c) _ main_arg6 (by exact (by decide : ∀ w, Pipeline.arrRef spec0 w ≠ main_arg6))).trans
      (HandHost.V_main_arg6 m c)

/-- Every weakly fair execution of the kernel program terminates with its result at the shared tail of the
    preferences, the reference's item features and the edge list, and its seven arguments as launched. -/
theorem run : θ_run defs (onTc (τ := τ) (main (F := Ideal))) ⟨m, fun _ => 0, ρ⟩ (fun r => ∀ c : Dev nD,
      r.2.mem ((c.tc : Thread nD τ).loc main_v63)
        = HandTail.tailK (F := Ideal) (m ((c : Thread nD τ).loc main_arg1)) (items m c) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v63 (Pipeline.mem_restRefs_of main_v63 (by decide) (by decide))).trans (tail_read m c),
      kept_arg0 m r h c,
      ((h c).2 main_arg1 (Pipeline.mem_restRefs_of main_arg1 (by decide) (by decide))).trans (HandHost.W_main_arg1 m (dats m) c),
      ((h c).2 main_arg2 (Pipeline.mem_restRefs_of main_arg2 (by decide) (by decide))).trans (HandHost.W_main_arg2 m (dats m) c),
      ((h c).2 main_arg3 (Pipeline.mem_restRefs_of main_arg3 (by decide) (by decide))).trans (HandHost.W_main_arg3 m (dats m) c),
      ((h c).2 main_arg4 (Pipeline.mem_restRefs_of main_arg4 (by decide) (by decide))).trans (HandHost.W_main_arg4 m (dats m) c),
      ((h c).2 main_arg5 (Pipeline.mem_restRefs_of main_arg5 (by decide) (by decide))).trans (HandHost.W_main_arg5 m (dats m) c),
      ((h c).2 main_arg6 (Pipeline.mem_restRefs_of main_arg6 (by decide) (by decide))).trans (HandHost.W_main_arg6 m (dats m) c)⟩)
    (run_main m ρ)

end Cert.KernelIdeal.HandValue

end
-- ==== Proof.LibStraightLine.lean ====
/-
  A straight-line host program cut into lines: three general facts, for writing by hand the run of a program whose
  operations come as a list of lists (one list per stretch of @main or per function written out at its call).

  * `after_append` — the contents after two lists of operations run one after the other is the fold over the second
    from the fold over the first;
  * `chain_seq` — lines run one after another are their concatenation run as one line, so an @main proved equal to
    the chain of its lines is `seq` of the flattened list, the form `StableHlo.run_seq` takes;
  * `forall_flatten` — a property of every operation of every line holds of every operation of the flattened list
    (the side conditions `run_seq` asks: each operation touches TensorCore references only, and fixes its results).
-/
import Idealize.ShloMosaic.Lib.StableHlo.Run
import Idealize.ShloMosaic.Lib.Pipeline.Regions

noncomputable section

namespace Cert.StraightLine

open Idealize.ShloMosaic Idealize.SL.Sem Idealize.ShloMosaic.StableHlo

variable {nD : Nat} {τ : Topo} {sig : RefSig} {Val : EltTy → Type} {Λ : Labels}

/-- Operations run one list after another: the fold over a concatenation is the fold over the second list from the
    fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Lines run one after another are their concatenation run as one line. -/
theorem chain_seq (L : List (List (HloOp τ sig Val))) :
    Pipeline.chain (L.map fun l => (seq l : Prog (TpuEff nD τ sig Val Λ .tc) PUnit)) = seq L.flatten := by
  induction L with
  | nil => rfl
  | cons l L ih =>
    rw [List.map_cons, Pipeline.chain_cons, ih, List.flatten_cons, StableHlo.seq_append]

/-- A property of every element of every list holds of every element of their concatenation. -/
theorem forall_flatten {α : Type} {p : α → Prop} (L : List (List α)) (h : L.Forall fun l => l.Forall p) : L.flatten.Forall p :=
  List.forall_iff_forall_mem.mpr fun x hx => by
    obtain ⟨l, hl, hxl⟩ := List.mem_flatten.mp hx
    exact List.forall_iff_forall_mem.mp (List.forall_iff_forall_mem.mp h l hl) x hxl

end Cert.StraightLine

end
-- ==== Proof.RefOps.lean ====
/-
  The reference program as a straight line. @main is 81 operations of its own and two calls — the leaky rectifier
  (six operations and a call of its own, of the choice function: one operation) and the row norm (five operations) —,
  so run in order it is ONE list of 93 operations, each the function of its operands the printed line names, each writing the
  buffer of the value it defines and no other. The list is cut into eight lines: at each call, at each return, after
  the item features (%8) and where the printed program is cut in two. Proved here: @main IS that list run in order;
  every operation touches only buffers of the core it runs on and determines what it writes; hence every run of
  @main ends, faults nowhere, and leaves each buffer at the fold of the 93 functions over what the launch found
  there; and no operation writes an argument, so the seven arguments end as they began.
-/
import proofs.«106516_j49108656063298_1_alg».proof.Proof.Gen.ReferenceIdeal
import proofs.«106516_j49108656063298_1_alg».proof.Proof.LibStraightLine
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The eight lines -/

/-- Every buffer some operation writes: one per value the program defines, none of them an argument's. -/
abbrev written : List (Ref sig .tc) :=
  [main_v0, main_v1, main_v2, main_v3, main_cst, main_call0_cst, main_call0_v0, main_call0_v1, main_call0_v2, main_call0_v3, main_call0_v4, main_v4, main_v5, main_v6, main_v7, main_v8, main_v9, main_call1_v0, main_call1_cst, main_call1_v1, main_call1_v2, main_v10, main_cst_0, main_v11, main_v12, main_v13, main_v14, main_v15, main_v16, main_v17, main_v18, main_cst_1, main_v19, main_cst_2, main_v20, main_v21, main_v22, main_cst_3, main_v23, main_v24, main_c, main_v25, main_v26, main_c_4, main_v27, main_v28, main_v29, main_v30, main_v31, main_c_5, main_v32, main_v33, main_c_6, main_v34, main_v35, main_v36, main_v37, main_v38, main_v39, main_v40, main_c_7, main_v41, main_v42, main_c_8, main_v43, main_v44, main_v45, main_v46, main_v47, main_v48, main_v49, main_cst_9, main_v50, main_v51, main_v52, main_v53, main_v54, main_c_10, main_v55, main_v56, main_c_11, main_v57, main_v58, main_v59, main_v60, main_v61, main_v62, main_v63, main_cst_12, main_v64, main_v65, main_v66, main_v67]

/-- features · W1, the first bias laid out as a row and repeated down the rows, their sum, and the slope 0.01: @main's %0 … %3 and %cst. -/
abbrev line0 : List (HloOp τ sig (Elt F)) :=
  [ StableHlo.binary main_arg0 main_arg2 main_v0 ((fun l r => Host.dotGeneral dot_S50000x4096_S4096x512_S50000x512_1_0_0_1_n_n none l r) : (⟨S50000x4096, .f32⟩ : BufTy).Contents (Elt F) → (⟨S4096x512, .f32⟩ : BufTy).Contents (Elt F) → (⟨S50000x512, .f32⟩ : BufTy).Contents (Elt F)),
    StableHlo.unary main_arg3 main_v1 (broadcastInDim S1x512 ![1] bcast_S512_S1x512_1 : (⟨S512, .f32⟩ : BufTy).Contents (Elt F) → (⟨S1x512, .f32⟩ : BufTy).Contents (Elt F)),
    StableHlo.unary main_v1 main_v2 (broadcastInDim S50000x512 ![0, 1] bcast_S1x512_S50000x512_0_1 : (⟨S1x512, .f32⟩ : BufTy).Contents (Elt F) → (⟨S50000x512, .f32⟩ : BufTy).Contents (Elt F)),
    StableHlo.binary main_v0 main_v2 main_v3 (addf : (⟨S50000x512, .f32⟩ : BufTy).Contents (Elt F) → (⟨S50000x512, .f32⟩ : BufTy).Contents (Elt F) → (⟨S50000x512, .f32⟩ : BufTy).Contents (Elt F)),
    StableHlo.nullary main_cst (constant S_ .f32 0x3C23D70A#32) ]
/-- Each touches buffers of the TensorCore only. -/
theorem line0_sub : (line0 : List (HloOp τ sig (Elt F))).Forall fun op => op.bufs ⊆ tcRefs τ sig :=
  ⟨binary_bufs_sub .., unary_bufs_sub .., unary_bufs_sub .., binary_bufs_sub .., nullary_bufs_sub ..⟩
/-- Each determines what it writes. -/
theorem line0_fresh : (line0 : List (HloOp τ sig (Elt F))).Forall fun op => op.fresh = ∅ :=
  ⟨rfl, rfl, rfl, rfl, rfl⟩
/-- Each writes a buffer of the list `written`. -/
theorem line0_writes : (line0 : List (HloOp τ sig (Elt F))).Forall fun op => op.writes ⊆ (written.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩

/-- The leaky rectifier's own six lines at its call (%4 = @leaky_relu(%3, %cst)): a zero array, the comparison %3 ≥ 0, the slope repeated to the array's shape, slope · %3. -/
abbrev line1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x512, .f32⟩) (broadcastInDim S50000x512 ![] bcast_S_S50000x512),
    StableHlo.TRef.binary (.of main_v3 : StableHlo.TRef sig ⟨S50000x512, .f32⟩) (.of main_call0_v0 : StableHlo.TRef sig ⟨S50000x512, .f32⟩) (.of main_call0_v1 : StableHlo.TRef sig ⟨S50000x512, .i1⟩) (cmpf .oge),
    StableHlo.TRef.unary (.of main_cst : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S50000x512, .f32⟩) (broadcastInDim S50000x512 ![] bcast_S_S50000x512),
    StableHlo.TRef.binary (.of main_call0_v3 : StableHlo.TRef sig ⟨S50000x512, .f32⟩) (.of main_v3 : StableHlo.TRef sig ⟨S50000x512, .f32⟩) (.of main_call0_v4 : StableHlo.TRef sig ⟨S50000x512, .f32⟩) mulf ]
/-- Each touches buffers of the TensorCore only. -/
theorem line1_sub : (line1 : List (HloOp τ sig (Elt F))).Forall fun op => op.bufs ⊆ tcRefs τ sig :=
  ⟨nullary_bufs_sub .., unary_bufs_sub .., binary_bufs_sub .., unary_bufs_sub .., unary_bufs_sub .., binary_bufs_sub ..⟩
/-- Each determines what it writes. -/
theorem line1_fresh : (line1 : List (HloOp τ sig (Elt F))).Forall fun op => op.fresh = ∅ :=
  ⟨rfl, rfl, rfl, rfl, rfl, rfl⟩
/-- Each writes a buffer of the list `written`. -/
theorem line1_writes : (line1 : List (HloOp τ sig (Elt F))).Forall fun op => op.writes ⊆ (written.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩

/-- The choice the rectifier calls (@_where): %3 where %3 ≥ 0, slope · %3 elsewhere; its result is @main's %4. -/
abbrev line2 : List (HloOp τ sig (Elt F)) :=
  [ StableHlo.TRef.ternary (.of main_call0_v1 : StableHlo.TRef sig ⟨S50000x512, .i1⟩) (.of main_v3 : StableHlo.TRef sig ⟨S50000x512, .f32⟩) (.of main_call0_v4 : StableHlo.TRef sig ⟨S50000x512, .f32⟩) (.of main_v4 : StableHlo.TRef sig ⟨S50000x512, .f32⟩) select ]
/-- Each touches buffers of the TensorCore only. -/
theorem line2_sub : (line2 : List (HloOp τ sig (Elt F))).Forall fun op => op.bufs ⊆ tcRefs τ sig :=
  ternary_bufs_sub ..
/-- Each determines what it writes. -/
theorem line2_fresh : (line2 : List (HloOp τ sig (Elt F))).Forall fun op => op.fresh = ∅ :=
  rfl
/-- Each writes a buffer of the list `written`. -/
theorem line2_writes : (line2 : List (HloOp τ sig (Elt F))).Forall fun op => op.writes ⊆ (written.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))

/-- %4 · W2, the second bias laid out and repeated, their sum: @main's %5 … %8, the item features. -/
abbrev line3 : List (HloOp τ sig (Elt F)) :=
  [ StableHlo.binary main_v4 main_arg4 main_v5 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.unary main_arg5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)) ]
/-- Each touches buffers of the TensorCore only. -/
theorem line3_sub : (line3 : List (HloOp τ sig (Elt F))).Forall fun op => op.bufs ⊆ tcRefs τ sig :=
  ⟨binary_bufs_sub .., unary_bufs_sub .., unary_bufs_sub .., binary_bufs_sub ..⟩
/-- Each determines what it writes. -/
theorem line3_fresh : (line3 : List (HloOp τ sig (Elt F))).Forall fun op => op.fresh = ∅ :=
  ⟨rfl, rfl, rfl, rfl⟩
/-- Each writes a buffer of the list `written`. -/
theorem line3_writes : (line3 : List (HloOp τ sig (Elt F))).Forall fun op => op.writes ⊆ (written.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩

/-- The preference rows above the item rows: @main's %9, a 100000 × 128 array. -/
abbrev line4 : List (HloOp τ sig (Elt F)) :=
  [ StableHlo.binary main_arg1 main_v8 main_v9 ((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F)) ]
/-- Each touches buffers of the TensorCore only. -/
theorem line4_sub : (line4 : List (HloOp τ sig (Elt F))).Forall fun op => op.bufs ⊆ tcRefs τ sig :=
  binary_bufs_sub ..
/-- Each determines what it writes. -/
theorem line4_fresh : (line4 : List (HloOp τ sig (Elt F))).Forall fun op => op.fresh = ∅ :=
  rfl
/-- Each writes a buffer of the list `written`. -/
theorem line4_writes : (line4 : List (HloOp τ sig (Elt F))).Forall fun op => op.writes ⊆ (written.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))

/-- The row norms at their call (%10 = @norm(%9)): the squares, their sum along each row from zero, laid out as a column, its square root. -/
abbrev line5 : List (HloOp τ sig (Elt F)) :=
  [ StableHlo.TRef.binary (.of main_v9 : StableHlo.TRef sig ⟨S100000x128, .f32⟩) (.of main_v9 : StableHlo.TRef sig ⟨S100000x128, .f32⟩) (.of main_call1_v0 : StableHlo.TRef sig ⟨S100000x128, .f32⟩) mulf,
    StableHlo.TRef.nullary (.of main_call1_cst : StableHlo.TRef sig ⟨S_, .f32⟩) (constant S_ .f32 0x00000000#32),
    StableHlo.TRef.binary (.of main_call1_v0 : StableHlo.TRef sig ⟨S100000x128, .f32⟩) (.of main_call1_cst : StableHlo.TRef sig ⟨S_, .f32⟩) (.of main_call1_v1 : StableHlo.TRef sig ⟨S100000, .f32⟩) (fun x v => Host.reduceAdd x v reducesTo_S100000x128_S100000_d1 h_S_),
    StableHlo.TRef.unary (.of main_call1_v1 : StableHlo.TRef sig ⟨S100000, .f32⟩) (.of main_call1_v2 : StableHlo.TRef sig ⟨S100000x1, .f32⟩) (broadcastInDim S100000x1 ![0] bcast_S100000_S100000x1_0),
    StableHlo.TRef.unary (.of main_call1_v2 : StableHlo.TRef sig ⟨S100000x1, .f32⟩) (.of main_v10 : StableHlo.TRef sig ⟨S100000x1, .f32⟩) Host.sqrt ]
/-- Each touches buffers of the TensorCore only. -/
theorem line5_sub : (line5 : List (HloOp τ sig (Elt F))).Forall fun op => op.bufs ⊆ tcRefs τ sig :=
  ⟨binary_bufs_sub .., nullary_bufs_sub .., binary_bufs_sub .., unary_bufs_sub .., unary_bufs_sub ..⟩
/-- Each determines what it writes. -/
theorem line5_fresh : (line5 : List (HloOp τ sig (Elt F))).Forall fun op => op.fresh = ∅ :=
  ⟨rfl, rfl, rfl, rfl, rfl⟩
/-- Each writes a buffer of the list `written`. -/
theorem line5_writes : (line5 : List (HloOp τ sig (Elt F))).Forall fun op => op.writes ⊆ (written.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩

/-- @main's %cst_0 … %48: the rows divided by their norms (bounded below), the two index rows of the edge array, the degrees by scatter-add of ones, degree^(−1/2) gathered at both ends of each edge and multiplied, the first gather of rows scaled by that weight's broadcast. -/
abbrev line6 : List (HloOp τ sig (Elt F)) :=
  [ StableHlo.nullary main_cst_0 (constant S_ .f32 0x2B8CBCCC#32),
    StableHlo.unary main_cst_0 main_v11 (broadcastInDim S100000x1 ![] bcast_S_S100000x1 : (⟨S_, .f32⟩ : BufTy).Contents (Elt F) → (⟨S100000x1, .f32⟩ : BufTy).Contents (Elt F)),
    StableHlo.binary main_v10 main_v11 main_v12 (maximumf : (⟨S100000x1, .f32⟩ : BufTy).Contents (Elt F) → (⟨S100000x1, .f32⟩ : BufTy).Contents (Elt F) → (⟨S100000x1, .f32⟩ : BufTy).Contents (Elt F)),
    StableHlo.unary main_v12 main_v13 (broadcastInDim S100000x128 ![0, 1] bcast_S100000x1_S100000x128_0_1 : (⟨S100000x1, .f32⟩ : BufTy).Contents (Elt F) → (⟨S100000x128, .f32⟩ : BufTy).Contents (Elt F)),
    StableHlo.binary main_v9 main_v13 main_v14 (Host.divf : (⟨S100000x128, .f32⟩ : BufTy).Contents (Elt F) → (⟨S100000x128, .f32⟩ : BufTy).Contents (Elt F) → (⟨S100000x128, .f32⟩ : BufTy).Contents (Elt F)),
    StableHlo.unary main_arg6 main_v15 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v15 main_v16 rfl shapeCasts_S1x1600000_S1600000,
    StableHlo.unary main_arg6 main_v17 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v17 main_v18 rfl shapeCasts_S1x1600000_S1600000,
    StableHlo.nullary main_cst_1 (constant S_ .f32 0x3F800000#32),
    StableHlo.unary main_cst_1 main_v19 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v20 (broadcastInDim S100000 ![] bcast_S_S100000 : (⟨S_, .f32⟩ : BufTy).Contents (Elt F) → (⟨S100000, .f32⟩ : BufTy).Contents (Elt F)),
    StableHlo.unary main_v16 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0xBF000000#32),
    StableHlo.unary main_cst_3 main_v23 (broadcastInDim S100000 ![] bcast_S_S100000 : (⟨S_, .f32⟩ : BufTy).Contents (Elt F) → (⟨S100000, .f32⟩ : BufTy).Contents (Elt F)),
    StableHlo.binary main_v22 main_v23 main_v24 (Host.powf : (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v25 (broadcastInDim S1600000 ![] bcast_S_S1600000 : (⟨S_, .i32⟩ : BufTy).Contents (Elt F) → (⟨S1600000, .i32⟩ : BufTy).Contents (Elt F)),
    StableHlo.binary main_v16 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v27 (broadcastInDim S1600000 ![] bcast_S_S1600000 : (⟨S_, .i32⟩ : BufTy).Contents (Elt F) → (⟨S1600000, .i32⟩ : BufTy).Contents (Elt F)),
    StableHlo.binary main_v16 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v16 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v32 (broadcastInDim S1600000 ![] bcast_S_S1600000 : (⟨S_, .i32⟩ : BufTy).Contents (Elt F) → (⟨S1600000, .i32⟩ : BufTy).Contents (Elt F)),
    StableHlo.binary main_v18 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v34 (broadcastInDim S1600000 ![] bcast_S_S1600000 : (⟨S_, .i32⟩ : BufTy).Contents (Elt F) → (⟨S1600000, .i32⟩ : BufTy).Contents (Elt F)),
    StableHlo.binary main_v18 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_v18 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v24 main_v37 main_v38 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v31 main_v38 main_v39 (mulf : (⟨S1600000, .f32⟩ : BufTy).Contents (Elt F) → (⟨S1600000, .f32⟩ : BufTy).Contents (Elt F) → (⟨S1600000, .f32⟩ : BufTy).Contents (Elt F)),
    StableHlo.unary main_v39 main_v40 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v41 (broadcastInDim S1600000 ![] bcast_S_S1600000 : (⟨S_, .i32⟩ : BufTy).Contents (Elt F) → (⟨S1600000, .i32⟩ : BufTy).Contents (Elt F)),
    StableHlo.binary main_v16 main_v41 main_v42 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v43 (broadcastInDim S1600000 ![] bcast_S_S1600000 : (⟨S_, .i32⟩ : BufTy).Contents (Elt F) → (⟨S1600000, .i32⟩ : BufTy).Contents (Elt F)),
    StableHlo.binary main_v16 main_v43 main_v44 (addi : (⟨S1600000, .i32⟩ : BufTy).Contents (Elt F) → (⟨S1600000, .i32⟩ : BufTy).Contents (Elt F) → (⟨S1600000, .i32⟩ : BufTy).Contents (Elt F)),
    StableHlo.ternary main_v42 main_v44 main_v16 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v45 main_v46 (broadcastInDim S1600000x1 ![0] bcast_S1600000_S1600000x1_0 : (⟨S1600000, .i32⟩ : BufTy).Contents (Elt F) → (⟨S1600000x1, .i32⟩ : BufTy).Contents (Elt F)),
    StableHlo.binary main_v14 main_v46 main_v47 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v40 main_v48 (broadcastInDim S1600000x128 ![0, 1] bcast_S1600000x1_S1600000x128_0_1 : (⟨S1600000x1, .f32⟩ : BufTy).Contents (Elt F) → (⟨S1600000x128, .f32⟩ : BufTy).Contents (Elt F)) ]
/-- Each touches buffers of the TensorCore only. -/
theorem line6_sub : (line6 : List (HloOp τ sig (Elt F))).Forall fun op => op.bufs ⊆ tcRefs τ sig :=
  ⟨nullary_bufs_sub .., unary_bufs_sub .., binary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
/-- Each determines what it writes. -/
theorem line6_fresh : (line6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each writes a buffer of the list `written`. -/
theorem line6_writes : (line6 : List (HloOp τ sig (Elt F))).Forall fun op => op.writes ⊆ (written.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩

/-- @main's %49 … %67: the first scatter-add of the scaled rows and its sum with the normalised rows, the second round (gather, scale, scatter-add) from the first round's result, and the final sum. -/
abbrev line7 : List (HloOp τ sig (Elt F)) :=
  [ StableHlo.binary main_v48 main_v47 main_v49 (mulf : (⟨S1600000x128, .f32⟩ : BufTy).Contents (Elt F) → (⟨S1600000x128, .f32⟩ : BufTy).Contents (Elt F) → (⟨S1600000x128, .f32⟩ : BufTy).Contents (Elt F)),
    StableHlo.nullary main_cst_9 (constant S_ .f32 0x00000000#32),
    StableHlo.unary main_cst_9 main_v50 (broadcastInDim S100000x128 ![] bcast_S_S100000x128 : (⟨S_, .f32⟩ : BufTy).Contents (Elt F) → (⟨S100000x128, .f32⟩ : BufTy).Contents (Elt F)),
    StableHlo.unary main_v18 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v14 main_v52 main_v53 (addf : (⟨S100000x128, .f32⟩ : BufTy).Contents (Elt F) → (⟨S100000x128, .f32⟩ : BufTy).Contents (Elt F) → (⟨S100000x128, .f32⟩ : BufTy).Contents (Elt F)),
    StableHlo.unary main_v39 main_v54 (broadcastInDim S1600000x1 ![0] bcast_S1600000_S1600000x1_0 : (⟨S1600000, .f32⟩ : BufTy).Contents (Elt F) → (⟨S1600000x1, .f32⟩ : BufTy).Contents (Elt F)),
    StableHlo.nullary main_c_10 (constantI S_ 32 0#32),
    StableHlo.unary main_c_10 main_v55 (broadcastInDim S1600000 ![] bcast_S_S1600000 : (⟨S_, .i32⟩ : BufTy).Contents (Elt F) → (⟨S1600000, .i32⟩ : BufTy).Contents (Elt F)),
    StableHlo.binary main_v16 main_v55 main_v56 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v57 (broadcastInDim S1600000 ![] bcast_S_S1600000 : (⟨S_, .i32⟩ : BufTy).Contents (Elt F) → (⟨S1600000, .i32⟩ : BufTy).Contents (Elt F)),
    StableHlo.binary main_v16 main_v57 main_v58 (addi : (⟨S1600000, .i32⟩ : BufTy).Contents (Elt F) → (⟨S1600000, .i32⟩ : BufTy).Contents (Elt F) → (⟨S1600000, .i32⟩ : BufTy).Contents (Elt F)),
    StableHlo.ternary main_v56 main_v58 main_v16 main_v59 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v59 main_v60 (broadcastInDim S1600000x1 ![0] bcast_S1600000_S1600000x1_0 : (⟨S1600000, .i32⟩ : BufTy).Contents (Elt F) → (⟨S1600000x1, .i32⟩ : BufTy).Contents (Elt F)),
    StableHlo.binary main_v52 main_v60 main_v61 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v54 main_v62 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v62 main_v61 main_v63 (mulf : (⟨S1600000x128, .f32⟩ : BufTy).Contents (Elt F) → (⟨S1600000x128, .f32⟩ : BufTy).Contents (Elt F) → (⟨S1600000x128, .f32⟩ : BufTy).Contents (Elt F)),
    StableHlo.nullary main_cst_12 (constant S_ .f32 0x00000000#32),
    StableHlo.unary main_cst_12 main_v64 (broadcastInDim S100000x128 ![] bcast_S_S100000x128 : (⟨S_, .f32⟩ : BufTy).Contents (Elt F) → (⟨S100000x128, .f32⟩ : BufTy).Contents (Elt F)),
    StableHlo.unary main_v18 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v53 main_v66 main_v67 (addf : (⟨S100000x128, .f32⟩ : BufTy).Contents (Elt F) → (⟨S100000x128, .f32⟩ : BufTy).Contents (Elt F) → (⟨S100000x128, .f32⟩ : BufTy).Contents (Elt F)) ]
/-- Each touches buffers of the TensorCore only. -/
theorem line7_sub : (line7 : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
/-- Each determines what it writes. -/
theorem line7_fresh : (line7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- Each writes a buffer of the list `written`. -/
theorem line7_writes : (line7 : List (HloOp τ sig (Elt F))).Forall fun op => op.writes ⊆ (written.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩

/-! ## The whole line -/

/-- The eight lines, in order. -/
abbrev lines : List (List (HloOp τ sig (Elt F))) := [line0, line1, line2, line3, line4, line5, line6, line7]

/-- @main's 93 operations in order, each call written out where it stands. -/
abbrev ops : List (HloOp τ sig (Elt F)) := (lines (F := F)).flatten

/-- The first printed half of @main (statements 1 … 60) is its first seven lines run in order: the two functions'
    definitions open at their calls, and sequencing re-associates. -/
theorem main_part0_chain (c : Dev nD) : main_part0 (F := F) c = (Pipeline.chainK
    [seq line0, seq line1, seq line2, seq line3, seq line4, seq line5] (seq line6) : Prog (TpuEff nD τ sig (Elt F) (Pipeline.Sig Λ₀ (Fin 0) fun p => (pcfgs (F := F) p).Adm) .tc) PUnit) := by
  chain_rfl

/-- The second half (statements 61 … 84) is the eighth line. -/
theorem main_part1_chain (c : Dev nD) : main_part1 (F := F) c = (Pipeline.chain [seq line7] : Prog (TpuEff nD τ sig (Elt F) (Pipeline.Sig Λ₀ (Fin 0) fun p => (pcfgs (F := F) p).Adm) .tc) PUnit) := by
  chain_rfl

/-- @main is the eight lines run in order. -/
theorem main_chain (c : Dev nD) : main (F := F) c = (Pipeline.chain
    [seq line0, seq line1, seq line2, seq line3, seq line4, seq line5, seq line6, seq line7] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  rfl

/-- @main is its 93 operations run in order: lines run one after another are their concatenation run as one. -/
theorem main_eq (c : Dev nD) : main (F := F) c = seq ops :=
  (main_chain c).trans (Cert.StraightLine.chain_seq (lines (F := F)))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  Cert.StraightLine.forall_flatten lines (by simp only [List.Forall]; exact ⟨line0_sub, line1_sub, line2_sub, line3_sub, line4_sub, line5_sub, line6_sub, line7_sub⟩)

theorem ops_fresh : (ops : List (HloOp τ sig (Elt F))).Forall fun op => op.fresh = ∅ :=
  Cert.StraightLine.forall_flatten lines (by simp only [List.Forall]; exact ⟨line0_fresh, line1_fresh, line2_fresh, line3_fresh, line4_fresh, line5_fresh, line6_fresh, line7_fresh⟩)

theorem ops_writes : (ops : List (HloOp τ sig (Elt F))).Forall fun op => op.writes ⊆ (written.map (Proc.devRef (τ := τ) .tc)).toFinset :=
  Cert.StraightLine.forall_flatten lines (by simp only [List.Forall]; exact ⟨line0_writes, line1_writes, line2_writes, line3_writes, line4_writes, line5_writes, line6_writes, line7_writes⟩)

/-- From any memory with zero counters: every weakly fair execution of @main terminates, and every final state has
    each buffer of each core at the fold of the 93 operations over what the launch found on that core. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-- A buffer no operation writes holds at the end what it held at the start. -/
theorem kept (W : Valuation τ sig (Elt F)) (r : Ref sig .tc) (h : r ∉ written) :
    after ops W (Proc.devRef .tc r) = W (Proc.devRef .tc r) :=
  after_of_writes_sub ops W ops_writes h

/-- No operation writes argument 0. -/
theorem kept_arg0 (W : Valuation τ sig (Elt F)) : after ops W (Proc.devRef .tc main_arg0) = W (Proc.devRef .tc main_arg0) :=
  kept W main_arg0 (by decide)
/-- No operation writes argument 1. -/
theorem kept_arg1 (W : Valuation τ sig (Elt F)) : after ops W (Proc.devRef .tc main_arg1) = W (Proc.devRef .tc main_arg1) :=
  kept W main_arg1 (by decide)
/-- No operation writes argument 2. -/
theorem kept_arg2 (W : Valuation τ sig (Elt F)) : after ops W (Proc.devRef .tc main_arg2) = W (Proc.devRef .tc main_arg2) :=
  kept W main_arg2 (by decide)
/-- No operation writes argument 3. -/
theorem kept_arg3 (W : Valuation τ sig (Elt F)) : after ops W (Proc.devRef .tc main_arg3) = W (Proc.devRef .tc main_arg3) :=
  kept W main_arg3 (by decide)
/-- No operation writes argument 4. -/
theorem kept_arg4 (W : Valuation τ sig (Elt F)) : after ops W (Proc.devRef .tc main_arg4) = W (Proc.devRef .tc main_arg4) :=
  kept W main_arg4 (by decide)
/-- No operation writes argument 5. -/
theorem kept_arg5 (W : Valuation τ sig (Elt F)) : after ops W (Proc.devRef .tc main_arg5) = W (Proc.devRef .tc main_arg5) :=
  kept W main_arg5 (by decide)
/-- No operation writes argument 6. -/
theorem kept_arg6 (W : Valuation τ sig (Elt F)) : after ops W (Proc.devRef .tc main_arg6) = W (Proc.devRef .tc main_arg6) :=
  kept W main_arg6 (by decide)

end Cert.ReferenceIdeal.HandRun

end
-- ==== Proof.RefRun.lean ====
/-
  What the reference computes, read off its run. Its last result, %67, is a function of three arrays only — the
  preference rows %arg1, the item features %8 and the edge array %arg6 —, and %8 is the item-feature network of the
  five other arguments (`Spec.mlpR`). `tailR` is that function, the printed lines %9 … %67 one for one with the row
  norm's five lines where it is called: the preference rows set above the item rows; every row divided by its
  Euclidean norm, the norm bounded below by 10⁻¹²; the two rows of the edge array; the degree of each node, a sum of
  ones scattered to the first row's indices; degree^(−1/2) read at both ends of every edge and multiplied, the edge
  weight (an index below zero read from the end, as the program writes it); then twice over: rows gathered at the
  first end, scaled by the edge weight, summed into the second end — the first round from the normalised rows, the
  second from the first round's sums —, and the normalised rows plus both rounds.
  The fold of the 93 operations is cut where %8 has been written: the fold over the first four lines leaves %8 at
  `Spec.mlpR` of the arguments and the arguments as they were; the fold over the last four lines, from ANY contents,
  leaves %67 at `tailR` of what %arg1, %8 and %arg6 held. Each is a computation: unfold the fold, read each
  operation's function at the buffer it writes and the old contents everywhere else.
-/
import proofs.«106516_j49108656063298_1_alg».proof.Proof.RefOps
import proofs.«106516_j49108656063298_1_alg».proof.Proof.RefSpec

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's %9 … %67 as one function of the preference rows `a` = %arg1, the item features `x` = %8 and the
    edge array `e` = %arg6; each line is the printed line of that name (`n0 … n2`, `ncst`: the row norm's own). -/
def tailR (a : FVec F S50000x128 .f32) (x : FVec F S50000x128 .f32) (e : IVec S2x1600000 32) : FVec F S100000x128 .f32 :=
  have v9 : FVec F S100000x128 .f32 := concatenate S100000x128 0 [⟨S50000x128, a⟩, ⟨S50000x128, x⟩] concatenates_S50000x128_S50000x128_S100000x128_d0
  have n0 : FVec F S100000x128 .f32 := mulf v9 v9
  have ncst : FVec F S_ .f32 := constant S_ .f32 0x00000000#32
  have n1 : FVec F S100000 .f32 := Host.reduceAdd n0 ncst reducesTo_S100000x128_S100000_d1 h_S_
  have n2 : FVec F S100000x1 .f32 := broadcastInDim S100000x1 ![0] bcast_S100000_S100000x1_0 n1
  have v10 : FVec F S100000x1 .f32 := Host.sqrt n2
  have cst_0 : FVec F S_ .f32 := constant S_ .f32 0x2B8CBCCC#32
  have v11 : FVec F S100000x1 .f32 := broadcastInDim S100000x1 ![] bcast_S_S100000x1 cst_0
  have v12 : FVec F S100000x1 .f32 := maximumf v10 v11
  have v13 : FVec F S100000x128 .f32 := broadcastInDim S100000x128 ![0, 1] bcast_S100000x1_S100000x128_0_1 v12
  have v14 : FVec F S100000x128 .f32 := Host.divf v9 v13
  have v15 : IVec S1x1600000 32 := extractStridedSlice S1x1600000 ![0, 0] e slices_S2x1600000_S1x1600000_0_0
  have v16 : IVec S1600000 32 := shapeCast S1600000 v15 shapeCasts_S1x1600000_S1600000
  have v17 : IVec S1x1600000 32 := extractStridedSlice S1x1600000 ![1, 0] e slices_S2x1600000_S1x1600000_1_0
  have v18 : IVec S1600000 32 := shapeCast S1600000 v17 shapeCasts_S1x1600000_S1600000
  have cst_1 : FVec F S_ .f32 := constant S_ .f32 0x3F800000#32
  have v19 : FVec F S1600000 .f32 := broadcastInDim S1600000 ![] bcast_S_S1600000 cst_1
  have cst_2 : FVec F S_ .f32 := constant S_ .f32 0x00000000#32
  have v20 : FVec F S100000 .f32 := broadcastInDim S100000 ![] bcast_S_S100000 cst_2
  have v21 : IVec S1600000x1 32 := broadcastInDim S1600000x1 ![0] bcast_S1600000_S1600000x1_0 v16
  have v22 : FVec F S100000 .f32 := Host.scatterAdd scatter_S100000_S1600000x1_S1600000_n_0_0_1 v20 v21 v19
  have cst_3 : FVec F S_ .f32 := constant S_ .f32 0xBF000000#32
  have v23 : FVec F S100000 .f32 := broadcastInDim S100000 ![] bcast_S_S100000 cst_3
  have v24 : FVec F S100000 .f32 := Host.powf v22 v23
  have c : IVec S_ 32 := constantI S_ 32 0#32
  have v25 : IVec S1600000 32 := broadcastInDim S1600000 ![] bcast_S_S1600000 c
  have v26 : IVec S1600000 1 := cmpi .slt v16 v25
  have c_4 : IVec S_ 32 := constantI S_ 32 100000#32
  have v27 : IVec S1600000 32 := broadcastInDim S1600000 ![] bcast_S_S1600000 c_4
  have v28 : IVec S1600000 32 := addi v16 v27
  have v29 : IVec S1600000 32 := select v26 v28 v16
  have v30 : IVec S1600000x1 32 := broadcastInDim S1600000x1 ![0] bcast_S1600000_S1600000x1_0 v29
  have v31 : FVec F S1600000 .f32 := Host.gather gather_S100000_S1600000x1_S1600000_n_0_n_n_0_1_1 v24 v30
  have c_5 : IVec S_ 32 := constantI S_ 32 0#32
  have v32 : IVec S1600000 32 := broadcastInDim S1600000 ![] bcast_S_S1600000 c_5
  have v33 : IVec S1600000 1 := cmpi .slt v18 v32
  have c_6 : IVec S_ 32 := constantI S_ 32 100000#32
  have v34 : IVec S1600000 32 := broadcastInDim S1600000 ![] bcast_S_S1600000 c_6
  have v35 : IVec S1600000 32 := addi v18 v34
  have v36 : IVec S1600000 32 := select v33 v35 v18
  have v37 : IVec S1600000x1 32 := broadcastInDim S1600000x1 ![0] bcast_S1600000_S1600000x1_0 v36
  have v38 : FVec F S1600000 .f32 := Host.gather gather_S100000_S1600000x1_S1600000_n_0_n_n_0_1_1 v24 v37
  have v39 : FVec F S1600000 .f32 := mulf v31 v38
  have v40 : FVec F S1600000x1 .f32 := broadcastInDim S1600000x1 ![0] bcast_S1600000_S1600000x1_0 v39
  have c_7 : IVec S_ 32 := constantI S_ 32 0#32
  have v41 : IVec S1600000 32 := broadcastInDim S1600000 ![] bcast_S_S1600000 c_7
  have v42 : IVec S1600000 1 := cmpi .slt v16 v41
  have c_8 : IVec S_ 32 := constantI S_ 32 100000#32
  have v43 : IVec S1600000 32 := broadcastInDim S1600000 ![] bcast_S_S1600000 c_8
  have v44 : IVec S1600000 32 := addi v16 v43
  have v45 : IVec S1600000 32 := select v42 v44 v16
  have v46 : IVec S1600000x1 32 := broadcastInDim S1600000x1 ![0] bcast_S1600000_S1600000x1_0 v45
  have v47 : FVec F S1600000x128 .f32 := Host.gather gather_S100000x128_S1600000x1_S1600000x128_1_0_n_n_0_1_1128 v14 v46
  have v48 : FVec F S1600000x128 .f32 := broadcastInDim S1600000x128 ![0, 1] bcast_S1600000x1_S1600000x128_0_1 v40
  have v49 : FVec F S1600000x128 .f32 := mulf v48 v47
  have cst_9 : FVec F S_ .f32 := constant S_ .f32 0x00000000#32
  have v50 : FVec F S100000x128 .f32 := broadcastInDim S100000x128 ![] bcast_S_S100000x128 cst_9
  have v51 : IVec S1600000x1 32 := broadcastInDim S1600000x1 ![0] bcast_S1600000_S1600000x1_0 v18
  have v52 : FVec F S100000x128 .f32 := Host.scatterAdd scatter_S100000x128_S1600000x1_S1600000x128_1_0_0_1 v50 v51 v49
  have v53 : FVec F S100000x128 .f32 := addf v14 v52
  have v54 : FVec F S1600000x1 .f32 := broadcastInDim S1600000x1 ![0] bcast_S1600000_S1600000x1_0 v39
  have c_10 : IVec S_ 32 := constantI S_ 32 0#32
  have v55 : IVec S1600000 32 := broadcastInDim S1600000 ![] bcast_S_S1600000 c_10
  have v56 : IVec S1600000 1 := cmpi .slt v16 v55
  have c_11 : IVec S_ 32 := constantI S_ 32 100000#32
  have v57 : IVec S1600000 32 := broadcastInDim S1600000 ![] bcast_S_S1600000 c_11
  have v58 : IVec S1600000 32 := addi v16 v57
  have v59 : IVec S1600000 32 := select v56 v58 v16
  have v60 : IVec S1600000x1 32 := broadcastInDim S1600000x1 ![0] bcast_S1600000_S1600000x1_0 v59
  have v61 : FVec F S1600000x128 .f32 := Host.gather gather_S100000x128_S1600000x1_S1600000x128_1_0_n_n_0_1_1128 v52 v60
  have v62 : FVec F S1600000x128 .f32 := broadcastInDim S1600000x128 ![0, 1] bcast_S1600000x1_S1600000x128_0_1 v54
  have v63 : FVec F S1600000x128 .f32 := mulf v62 v61
  have cst_12 : FVec F S_ .f32 := constant S_ .f32 0x00000000#32
  have v64 : FVec F S100000x128 .f32 := broadcastInDim S100000x128 ![] bcast_S_S100000x128 cst_12
  have v65 : IVec S1600000x1 32 := broadcastInDim S1600000x1 ![0] bcast_S1600000_S1600000x1_0 v18
  have v66 : FVec F S100000x128 .f32 := Host.scatterAdd scatter_S100000x128_S1600000x1_S1600000x128_1_0_0_1 v64 v65 v63
  have v67 : FVec F S100000x128 .f32 := addf v53 v66
  v67

/-- The fold over the 93 operations is the fold over the eight lines, one after the other. -/
theorem after_ops (W : Valuation τ sig (Elt F)) :
    after ops W = after line7 (after line6 (after line5 (after line4 (after line3 (after line2 (after line1 (after line0 (W)))))))) := by
  show after (line0 ++ (line1 ++ (line2 ++ (line3 ++ (line4 ++ (line5 ++ (line6 ++ (line7 ++ [])))))))) W = _
  rw [List.append_nil]
  repeat rw [Cert.StraightLine.after_append]

/-- After the first four lines %8 holds the item-feature network of the five arguments it reads. -/
theorem mlp_v8 (W : Valuation τ sig (Elt F)) :
    after line3 (after line2 (after line1 (after line0 W))) (Proc.devRef .tc main_v8)
      = Cert.ReferenceIdeal.Spec.mlpR (W (Proc.devRef .tc main_arg0)) (W (Proc.devRef .tc main_arg2)) (W (Proc.devRef .tc main_arg3)) (W (Proc.devRef .tc main_arg4)) (W (Proc.devRef .tc main_arg5)) := by
  after_results_simp
  rfl

/-- The first four lines write neither the preference rows nor the edge array. -/
theorem mlp_arg1 (W : Valuation τ sig (Elt F)) : after line3 (after line2 (after line1 (after line0 W))) (Proc.devRef .tc main_arg1) = W (Proc.devRef .tc main_arg1) := by
  after_results_simp
theorem mlp_arg6 (W : Valuation τ sig (Elt F)) : after line3 (after line2 (after line1 (after line0 W))) (Proc.devRef .tc main_arg6) = W (Proc.devRef .tc main_arg6) := by
  after_results_simp

/-- From any contents, after the last four lines %67 holds `tailR` of what %arg1, %8 and %arg6 held. -/
theorem tail_v67 (V : Valuation τ sig (Elt F)) :
    after line7 (after line6 (after line5 (after line4 V))) (Proc.devRef .tc main_v67) = tailR (V (Proc.devRef .tc main_arg1)) (V (Proc.devRef .tc main_v8)) (V (Proc.devRef .tc main_arg6)) := by
  after_results_simp
  rfl

/-- At the end of the run the result %67 is `tailR` of the preference rows, the item-feature network of the five
    arguments it reads, and the edge array. -/
theorem res_v67 (W : Valuation τ sig (Elt F)) : after ops W (Proc.devRef .tc main_v67)
    = tailR (W (Proc.devRef .tc main_arg1)) (Cert.ReferenceIdeal.Spec.mlpR (W (Proc.devRef .tc main_arg0)) (W (Proc.devRef .tc main_arg2)) (W (Proc.devRef .tc main_arg3)) (W (Proc.devRef .tc main_arg4)) (W (Proc.devRef .tc main_arg5))) (W (Proc.devRef .tc main_arg6)) := by
  rw [after_ops, tail_v67, mlp_v8, mlp_arg1, mlp_arg6]

end Cert.ReferenceIdeal.HandRun

end
-- ==== Proof.TailEq.lean ====
/-
  The two programs end with the same host lines.

  After the item features are computed, the kernel program and the reference run the same 77 operations on them:
  the preferences and the features joined, every row divided by its norm clamped from below, the degrees counted by
  a scatter-add of ones, each edge weighted by the inverse square roots of its two endpoints' degrees, and two rounds
  of gathering the source rows, scaling by the edge weight and scatter-adding into the target rows, each round added
  on. Each program prints the operations over its own copies of the same shape records; operation by operation the
  two chains are one function of the preferences, the features and the edge list.
-/
import proofs.«106516_j49108656063298_1_alg».proof.Proof.KTailDef
import proofs.«106516_j49108656063298_1_alg».proof.Proof.RefRun

noncomputable section

namespace Cert.Bridge

open Idealize.ShloMosaic

/-- The reference's tail and the kernel program's tail are one function, at any float instance. -/
theorem tail_eq {F : FTy → Type} [FloatOps F] (a x : FVec F Cert.KernelIdeal.S50000x128 .f32) (e : IVec Cert.KernelIdeal.S2x1600000 32) :
    Cert.ReferenceIdeal.HandRun.tailR (F := F) a x e = Cert.KernelIdeal.HandTail.tailK (F := F) a x e := rfl

end Cert.Bridge

end
-- ==== Proof.lean ====
/- The proof of `Cert.Claim` (proofs.«106516_j49108656063298_1_alg».proof.Defs): hand-written, untrusted.

   The kernel program computes the item features — features · W1 + b1, the leaky rectifier of slope 0.01, · W2 + b2 — in
   a region of 125 grid points, each on a block of 400 rows, the operands rounded to bf16 on their way into the
   matrix unit; the reference computes them as two whole matrix products. Both then run the same 77 host lines on
   the preferences, the item features and the edge list (join, normalise the rows, degrees, two rounds of
   gather-scale-scatter).

   * The frames. The kernel program's body loads its five input blocks, computes, and stores the output block whole
     (Proof/KBody*.lean); each input's staging buffer holds its block at every point, so that triple is the body
     obligation (Proof/KFrame*.lean); the host lines after the region write no window's array and no argument
     (Proof/KHost*.lean), so the region's launch theorem gives the run and the frame (Proof/KRun*.lean) — written once
     for any float instance and read at the word-level program and at the idealized one. The reference is a straight
     line of host operations with its three called functions written out (Proof/RefOps.lean): it runs to the fold of
     its operations, none of which writes an argument.
   * `preserves`: the idealization rewrote nothing, so there is nothing to show.
   * `algebraic`. At the exact instance a change of float format is the identity and both kinds of matrix product are
     the plain sum over the contracted axis, and row p of a product reads row p of its left operand only: so row y of
     what point t writes back is row 400·t + y of the reference's item features (Proof/MlpRows.lean), the 125 blocks
     fill the array, and the region's result IS the reference's item features of the arguments (Proof/KValue.lean).
     The host lines that follow are one function on both sides (Proof/KTail.lean, Proof/RefRun.lean,
     Proof/TailEq.lean), so the results agree. No finiteness of the inputs is used: nothing is distributed or
     cancelled. -/
import proofs.«106516_j49108656063298_1_alg».proof.Defs
import proofs.«106516_j49108656063298_1_alg».proof.Proof.KRun
import proofs.«106516_j49108656063298_1_alg».proof.Proof.KValue
import proofs.«106516_j49108656063298_1_alg».proof.Proof.RefRun
import proofs.«106516_j49108656063298_1_alg».proof.Proof.TailEq
import proofs.«106516_j49108656063298_1_alg».proof.Proof.Gen.Kernel
import proofs.«106516_j49108656063298_1_alg».proof.Proof.Gen.Kernel.Skeleton
import proofs.«106516_j49108656063298_1_alg».proof.Proof.Gen.Kernel.Launch
import proofs.«106516_j49108656063298_1_alg».proof.Proof.Gen.Kernel.Points
import proofs.«106516_j49108656063298_1_alg».proof.Proof.Gen.KernelIdeal
import proofs.«106516_j49108656063298_1_alg».proof.Proof.Gen.KernelIdeal.Skeleton
import proofs.«106516_j49108656063298_1_alg».proof.Proof.Gen.KernelIdeal.Launch
import proofs.«106516_j49108656063298_1_alg».proof.Proof.Gen.KernelIdeal.Points
import proofs.«106516_j49108656063298_1_alg».proof.Proof.Gen.ReferenceIdeal
import proofs.«106516_j49108656063298_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.HandFrame.frame (F := Bits) m ρ

/-- So does its idealization. -/
theorem frame_ki : Cert.frame_KernelIdeal := fun m ρ _ => Cert.KernelIdeal.HandFrame.frame (F := Ideal) m ρ

/-- The reference runs to the fold of its operations, none of which writes an argument. -/
theorem frame_ri : Cert.frame_ReferenceIdeal := fun m ρ _ =>
  (θ_run Cert.ReferenceIdeal.defs _ _).mono (fun r h c => ⟨
      (h c Cert.ReferenceIdeal.main_arg0).trans (Cert.ReferenceIdeal.HandRun.kept_arg0 _),
      (h c Cert.ReferenceIdeal.main_arg1).trans (Cert.ReferenceIdeal.HandRun.kept_arg1 _),
      (h c Cert.ReferenceIdeal.main_arg2).trans (Cert.ReferenceIdeal.HandRun.kept_arg2 _),
      (h c Cert.ReferenceIdeal.main_arg3).trans (Cert.ReferenceIdeal.HandRun.kept_arg3 _),
      (h c Cert.ReferenceIdeal.main_arg4).trans (Cert.ReferenceIdeal.HandRun.kept_arg4 _),
      (h c Cert.ReferenceIdeal.main_arg5).trans (Cert.ReferenceIdeal.HandRun.kept_arg5 _),
      (h c Cert.ReferenceIdeal.main_arg6).trans (Cert.ReferenceIdeal.HandRun.kept_arg6 _)⟩)
    (Cert.ReferenceIdeal.HandRun.run_all (F := Ideal) m ρ)

/-- The idealization rewrote no operation. -/
theorem preserves : Cert.preserves_Kernel_KernelIdeal := trivial

/-- From memories agreeing on the arguments both programs end with the shared tail of the preferences, the
    reference's item features of the arguments, and the edge list; and with the preferences themselves. -/
theorem algebraic : Cert.algebraic_KernelIdeal_ReferenceIdeal := by
  intro m ρ m' ρ' _ hagree
  refine ⟨fun c => Cert.KernelIdeal.HandTail.tailK (F := Ideal) (m ((c : Thread Cert.KernelIdeal.nD Cert.KernelIdeal.τ).loc Cert.KernelIdeal.main_arg1))
      (Cert.KernelIdeal.HandValue.items m c) (m ((c : Thread Cert.KernelIdeal.nD Cert.KernelIdeal.τ).loc Cert.KernelIdeal.main_arg6)),
    fun c => m ((c : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.HandValue.run m ρ)
  · refine (θ_run Cert.ReferenceIdeal.defs _ _).mono (fun r h c => ?_) (Cert.ReferenceIdeal.HandRun.run_all (F := Ideal) m' ρ')
    obtain ⟨a0, a1, a2, a3, a4, a5, a6⟩ := hagree c
    refine ⟨?_, ((h c Cert.ReferenceIdeal.main_arg1).trans (Cert.ReferenceIdeal.HandRun.kept_arg1 _)).trans a1,
      (h c Cert.ReferenceIdeal.main_arg0).trans (Cert.ReferenceIdeal.HandRun.kept_arg0 _),
      (h c Cert.ReferenceIdeal.main_arg1).trans (Cert.ReferenceIdeal.HandRun.kept_arg1 _),
      (h c Cert.ReferenceIdeal.main_arg2).trans (Cert.ReferenceIdeal.HandRun.kept_arg2 _),
      (h c Cert.ReferenceIdeal.main_arg3).trans (Cert.ReferenceIdeal.HandRun.kept_arg3 _),
      (h c Cert.ReferenceIdeal.main_arg4).trans (Cert.ReferenceIdeal.HandRun.kept_arg4 _),
      (h c Cert.ReferenceIdeal.main_arg5).trans (Cert.ReferenceIdeal.HandRun.kept_arg5 _),
      (h c Cert.ReferenceIdeal.main_arg6).trans (Cert.ReferenceIdeal.HandRun.kept_arg6 _)⟩
    refine (h c Cert.ReferenceIdeal.main_v67).trans ((Cert.ReferenceIdeal.HandRun.res_v67 _).trans ?_)
    show Cert.ReferenceIdeal.HandRun.tailR (F := Ideal) (m' ((c.tc : Thread Cert.ReferenceIdeal.nD Cert.ReferenceIdeal.τ).loc Cert.ReferenceIdeal.main_arg1))
        (Cert.ReferenceIdeal.Spec.mlpR (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)))
        (m' ((c.tc : Thread Cert.ReferenceIdeal.nD Cert.ReferenceIdeal.τ).loc Cert.ReferenceIdeal.main_arg6)) = _
    rw [a0, a1, a2, a3, a4, a5, a6]
    exact Cert.Bridge.tail_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
